-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S500000 : Shape := ⟨1, ![500000]⟩
abbrev S25000 : Shape := ⟨1, ![25000]⟩
abbrev S100000x512 : Shape := ⟨2, ![100000, 512]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S500000 : S_.BroadcastsInDim S500000 (![] : Fin 0 → Fin S500000.rank)
  reducesTo_S500000_S_d0 : S500000.ReducesTo [0] S_
  bcast_S_S100000x512 : S_.BroadcastsInDim S100000x512 (![] : Fin 0 → Fin S100000x512.rank)
  reducesTo_S100000x512_S_d0_1 : S100000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg7 : FVec F S512 .f32) (main_arg8 : FVec F S512 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg9
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S50000x512 .f32) (main_arg1 : IVec S500000 32) (main_arg2 : IVec S500000 32) (main_arg3 : FVec F S500000 .f32) (main_arg4 : IVec S25000 32) (main_arg5 : FVec F S100000x512 .f32) (main_arg6 : FVec F S512x512 .f32) (main_arg7 : FVec F S512 .f32) (main_arg8 : FVec F S512 .f32) (main_arg9 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S500000 .f32 := Host.absf main_arg3
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S100000x512 .f32 := Host.absf main_arg5
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_v14 : FVec F S512x512 .f32 := Host.absf main_arg6
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg7 main_arg8 main_arg9 main_v13 main_v16
-- ==== Kernel.lean ====
abbrev S50000x512 : Shape := ⟨2, ![50000, 512]⟩
abbrev S500000 : Shape := ⟨1, ![500000]⟩
abbrev S25000 : Shape := ⟨1, ![25000]⟩
abbrev S100000x512 : Shape := ⟨2, ![100000, 512]⟩
abbrev S512x512 : Shape := ⟨2, ![512, 512]⟩
abbrev S512 : Shape := ⟨1, ![512]⟩
abbrev S500000x1 : Shape := ⟨2, ![500000, 1]⟩
abbrev S_ : Shape := ⟨0, ![]⟩
abbrev S500000x512 : Shape := ⟨2, ![500000, 512]⟩
abbrev S25000x512 : Shape := ⟨2, ![25000, 512]⟩
abbrev S25000x1 : Shape := ⟨2, ![25000, 1]⟩
abbrev S1x512 : Shape := ⟨2, ![1, 512]⟩
abbrev S2000x512 : Shape := ⟨2, ![2000, 512]⟩
abbrev S2000 : Shape := ⟨1, ![2000]⟩
abbrev S2000x1 : Shape := ⟨2, ![2000, 1]⟩

abbrev nBuf : Space → Nat
  | .hbm => 39
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S500000, .i32⟩
  | .hbm, ⟨2, _⟩ => ⟨S500000, .i32⟩
  | .hbm, ⟨3, _⟩ => ⟨S500000, .f32⟩
  | .hbm, ⟨4, _⟩ => ⟨S25000, .i32⟩
  | .hbm, ⟨5, _⟩ => ⟨S100000x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S500000x1, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x512, .f32⟩
  | .hbm, ⟨20, _⟩ => ⟨S500000x512, .f32⟩
  | .hbm, ⟨21, _⟩ => ⟨S500000x512, .f32⟩
  | .hbm, ⟨22, _⟩ => ⟨S_, .f32⟩
  | .hbm, ⟨23, _⟩ => ⟨S25000x512, .f32⟩
  | .hbm, ⟨24, _⟩ => ⟨S500000x1, .i32⟩
  | .hbm, ⟨25, _⟩ => ⟨S25000x512, .f32⟩
  | .hbm, ⟨26, _⟩ => ⟨S_, .i32⟩
  | .hbm, ⟨27, _⟩ => ⟨S25000, .i32⟩
  | .hbm, ⟨28, _⟩ => ⟨S25000, .i1⟩
  | .hbm, ⟨29, _⟩ => ⟨S_, .i32⟩
  | .hbm, ⟨30, _⟩ => ⟨S25000, .i32⟩
  | .hbm, ⟨31, _⟩ => ⟨S25000, .i32⟩
  | .hbm, ⟨32, _⟩ => ⟨S25000, .i32⟩
  | .hbm, ⟨33, _⟩ => ⟨S25000x1, .i32⟩
  | .hbm, ⟨34, _⟩ => ⟨S25000x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S25000x512, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x512_0_1 : S500000x1.BroadcastsInDim S500000x512 (![0, 1] : Fin 2 → Fin S500000x512.rank)
  bcast_S_S25000x512 : S_.BroadcastsInDim S25000x512 (![] : Fin 0 → Fin S25000x512.rank)
  bcast_S_S25000 : S_.BroadcastsInDim S25000 (![] : Fin 0 → Fin S25000.rank)
  bcast_S25000_S25000x1_0 : S25000.BroadcastsInDim S25000x1 (![0] : Fin 1 → Fin S25000x1.rank)
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S2000 : S2000x512.Reduces [1] S2000
  shapeCasts_S2000_S2000x1 : S2000.ShapeCasts S2000x1
  broadcasts_S2000x1_S2000x512 : S2000x1.Broadcasts S2000x512
  gather_S50000x512_S500000x1_S500000x512_1_0_n_n_0_1_1512_wf : GatherDims.WF S50000x512 S500000x1 S500000x512 [1] [0] [] [0] [] 1 ![1, 512]
  scatter_S25000x512_S500000x1_S500000x512_1_0_0_1_wf : ScatterDims.WF S25000x512 S500000x1 S500000x512 [1] [0] [0] 1
  gather_S100000x512_S25000x1_S25000x512_1_0_n_n_0_1_1512_wf : GatherDims.WF S100000x512 S25000x1 S25000x512 [1] [0] [] [0] [] 1 ![1, 512]
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2000x512.size a < S25000x512.size a
  hwx0_0 : ∀ i : grid0.Coords, EltTy.bits .f32 = 32 ∨ (Rect.unit (s := S25000x512) (fun a => cc0_transform_0 i a * S2000x512.size a) (fun a => (Pipeline.Clip.of (cc0_transform_0 i a) (S2000x512.size a) (S25000x512.size a)).extent (S2000x512.size a)) fun a => Pipeline.Clip.inb (Pipeline.Clip.ok_of (hstart0_0 i a))).WholeWords (EltTy.packing .f32)
  hwxs0_0 : ∀ i : grid0.Coords, EltTy.bits .f32 = 32 ∨ (Rect.unit (s := S2000x512) (fun _ => 0) (fun a => (Pipeline.Clip.of (cc0_transform_0 i a) (S2000x512.size a) (S25000x512.size a)).extent (S2000x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2000x512.size a < S25000x512.size a
  hwx0_1 : ∀ i : grid0.Coords, EltTy.bits .f32 = 32 ∨ (Rect.unit (s := S25000x512) (fun a => cc0_transform_1 i a * S2000x512.size a) (fun a => (Pipeline.Clip.of (cc0_transform_1 i a) (S2000x512.size a) (S25000x512.size a)).extent (S2000x512.size a)) fun a => Pipeline.Clip.inb (Pipeline.Clip.ok_of (hstart0_1 i a))).WholeWords (EltTy.packing .f32)
  hwxs0_1 : ∀ i : grid0.Coords, EltTy.bits .f32 = 32 ∨ (Rect.unit (s := S2000x512) (fun _ => 0) (fun a => (Pipeline.Clip.of (cc0_transform_1 i a) (S2000x512.size a) (S25000x512.size a)).extent (S2000x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S2000x512.size a < S25000x512.size a
  hwx0_6 : ∀ i : grid0.Coords, EltTy.bits .f32 = 32 ∨ (Rect.unit (s := S25000x512) (fun a => cc0_transform_6 i a * S2000x512.size a) (fun a => (Pipeline.Clip.of (cc0_transform_6 i a) (S2000x512.size a) (S25000x512.size a)).extent (S2000x512.size a)) fun a => Pipeline.Clip.inb (Pipeline.Clip.ok_of (hstart0_6 i a))).WholeWords (EltTy.packing .f32)
  hwxs0_6 : ∀ i : grid0.Coords, EltTy.bits .f32 = 32 ∨ (Rect.unit (s := S2000x512) (fun _ => 0) (fun a => (Pipeline.Clip.of (cc0_transform_6 i a) (S2000x512.size a) (S25000x512.size a)).extent (S2000x512.size a)) fun a => (Nat.zero_add _).trans_le (Pipeline.Clip.extent_le (Pipeline.Clip.ok_of (hstart0_6 i a)))).WholeWords (EltTy.packing .f32)

variable [Facts₀]

def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S25000x512_S500000x1_S500000x512_1_0_0_1 : ScatterDims S25000x512 S500000x1 S500000x512 where
  updateWindowDims := [1]
  insertedWindowDims := [0]
  scatterDimsToOperandDims := [0]
  indexVectorDim := 1
  wf := scatter_S25000x512_S500000x1_S500000x512_1_0_0_1_wf
def gather_S100000x512_S25000x1_S25000x512_1_0_n_n_0_1_1512 : GatherDims S100000x512 S25000x1 S25000x512 where
  offsetDims := [1]
  collapsedSliceDims := [0]
  operandBatchingDims := []
  startIndicesBatchingDims := []
  startIndexMap := [0]
  indexVectorDim := 1
  sliceSizes := ![1, 512]
  wf := gather_S100000x512_S25000x1_S25000x512_1_0_n_n_0_1_1512_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpecClip (Memref.whole main_v12) S2000x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v19) S2000x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg6) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v23) S2000x512.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x512 : Shape := ⟨2, ![50000, 512]⟩
abbrev S500000 : Shape := ⟨1, ![500000]⟩
abbrev S25000 : Shape := ⟨1, ![25000]⟩
abbrev S100000x512 : Shape := ⟨2, ![100000, 512]⟩
abbrev S512x512 : Shape := ⟨2, ![512, 512]⟩
abbrev S512 : Shape := ⟨1, ![512]⟩
abbrev S500000x1 : Shape := ⟨2, ![500000, 1]⟩
abbrev S_ : Shape := ⟨0, ![]⟩
abbrev S500000x512 : Shape := ⟨2, ![500000, 512]⟩
abbrev S25000x512 : Shape := ⟨2, ![25000, 512]⟩
abbrev S1x512 : Shape := ⟨2, ![1, 512]⟩
abbrev S25000x1 : Shape := ⟨2, ![25000, 1]⟩

abbrev nBuf : Space → Nat
  | .hbm => 105
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S500000, .i32⟩
  | .hbm, ⟨2, _⟩ => ⟨S500000, .i32⟩
  | .hbm, ⟨3, _⟩ => ⟨S500000, .f32⟩
  | .hbm, ⟨4, _⟩ => ⟨S25000, .i32⟩
  | .hbm, ⟨5, _⟩ => ⟨S100000x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S500000x1, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x512, .f32⟩
  | .hbm, ⟨20, _⟩ => ⟨S500000x512, .f32⟩
  | .hbm, ⟨21, _⟩ => ⟨S500000x512, .f32⟩
  | .hbm, ⟨22, _⟩ => ⟨S_, .f32⟩
  | .hbm, ⟨23, _⟩ => ⟨S25000x512, .f32⟩
  | .hbm, ⟨24, _⟩ => ⟨S500000x1, .i32⟩
  | .hbm, ⟨25, _⟩ => ⟨S25000x512, .f32⟩
  | .hbm, ⟨26, _⟩ => ⟨S25000x512, .f32⟩
  | .hbm, ⟨27, _⟩ => ⟨S1x512, .f32⟩
  | .hbm, ⟨28, _⟩ => ⟨S25000x512, .f32⟩
  | .hbm, ⟨29, _⟩ => ⟨S25000x512, .f32⟩
  | .hbm, ⟨30, _⟩ => ⟨S_, .f32⟩
  | .hbm, ⟨31, _⟩ => ⟨S25000x512, .f32⟩
  | .hbm, ⟨32, _⟩ => ⟨S25000x512, .f32⟩
  | .hbm, ⟨33, _⟩ => ⟨S_, .i32⟩
  | .hbm, ⟨34, _⟩ => ⟨S25000, .i32⟩
  | .hbm, ⟨35, _⟩ => ⟨S25000, .i1⟩
  | .hbm, ⟨36, _⟩ => ⟨S_, .i32⟩
  | .hbm, ⟨37, _⟩ => ⟨S25000, .i32⟩
  | .hbm, ⟨38, _⟩ => ⟨S25000, .i32⟩
  | .hbm, ⟨39, _⟩ => ⟨S25000, .i32⟩
  | .hbm, ⟨40, _⟩ => ⟨S25000x1, .i32⟩
  | .hbm, ⟨41, _⟩ => ⟨S25000x512, .f32⟩
  | .hbm, ⟨42, _⟩ => ⟨S_, .f32⟩
  | .hbm, ⟨43, _⟩ => ⟨S25000x512, .f32⟩
  | .hbm, ⟨44, _⟩ => ⟨S25000x512, .f32⟩
  | .hbm, ⟨45, _⟩ => ⟨S25000x512, .f32⟩
  | .hbm, ⟨46, _⟩ => ⟨S_, .f32⟩
  | .hbm, ⟨47, _⟩ => ⟨S25000x512, .f32⟩
  | .hbm, ⟨48, _⟩ => ⟨S25000x512, .i1⟩
  | .hbm, ⟨49, _⟩ => ⟨S_, .f32⟩
  | .hbm, ⟨50, _⟩ => ⟨S25000x512, .f32⟩
  | .hbm, ⟨51, _⟩ => ⟨S25000x512, .i1⟩
  | .hbm, ⟨52, _⟩ => ⟨S_, .f32⟩
  | .hbm, ⟨53, _⟩ => ⟨S_, .f32⟩
  | .hbm, ⟨54, _⟩ => ⟨S25000x512, .f32⟩
  | .hbm, ⟨55, _⟩ => ⟨S25000x512, .f32⟩
  | .hbm, ⟨56, _⟩ => ⟨S25000x512, .f32⟩
  | .hbm, ⟨57, _⟩ => ⟨S_, .f32⟩
  | .hbm, ⟨58, _⟩ => ⟨S25000x512, .f32⟩
  | .hbm, ⟨59, _⟩ => ⟨S25000x512, .f32⟩
  | .hbm, ⟨60, _⟩ => ⟨S25000x512, .f32⟩
  | .hbm, ⟨61, _⟩ => ⟨S_, .f32⟩
  | .hbm, ⟨62, _⟩ => ⟨S25000, .f32⟩
  | .hbm, ⟨63, _⟩ => ⟨S25000x1, .f32⟩
  | .hbm, ⟨64, _⟩ => ⟨S_, .f32⟩
  | .hbm, ⟨65, _⟩ => ⟨S25000x1, .f32⟩
  | .hbm, ⟨66, _⟩ => ⟨S25000x1, .f32⟩
  | .hbm, ⟨67, _⟩ => ⟨S_, .i32⟩
  | .hbm, ⟨68, _⟩ => ⟨S_, .f32⟩
  | .hbm, ⟨69, _⟩ => ⟨S25000, .f32⟩
  | .hbm, ⟨70, _⟩ => ⟨S25000x1, .f32⟩
  | .hbm, ⟨71, _⟩ => ⟨S_, .f32⟩
  | .hbm, ⟨72, _⟩ => ⟨S25000x1, .f32⟩
  | .hbm, ⟨73, _⟩ => ⟨S25000x1, .f32⟩
  | .hbm, ⟨74, _⟩ => ⟨S25000x512, .f32⟩
  | .hbm, ⟨75, _⟩ => ⟨S25000x512, .f32⟩
  | .hbm, ⟨76, _⟩ => ⟨S25000x512, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S25000, .f32⟩
  | .hbm, ⟨82, _⟩ => ⟨S25000x1, .f32⟩
  | .hbm, ⟨83, _⟩ => ⟨S25000x1, .f32⟩
  | .hbm, ⟨84, _⟩ => ⟨S25000x1, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S25000x1, .f32⟩
  | .hbm, ⟨90, _⟩ => ⟨S25000x1, .f32⟩
  | .hbm, ⟨91, _⟩ => ⟨S_, .f32⟩
  | .hbm, ⟨92, _⟩ => ⟨S25000x1, .f32⟩
  | .hbm, ⟨93, _⟩ => ⟨S25000x1, .f32⟩
  | .hbm, ⟨94, _⟩ => ⟨S25000x512, .f32⟩
  | .hbm, ⟨95, _⟩ => ⟨S25000x512, .f32⟩
  | .hbm, ⟨96, _⟩ => ⟨S1x512, .f32⟩
  | .hbm, ⟨97, _⟩ => ⟨S25000x512, .f32⟩
  | .hbm, ⟨98, _⟩ => ⟨S25000x512, .f32⟩
  | .hbm, ⟨99, _⟩ => ⟨S25000x1, .f32⟩
  | .hbm, ⟨100, _⟩ => ⟨S25000x512, .f32⟩
  | .hbm, ⟨101, _⟩ => ⟨S25000x512, .f32⟩
  | .hbm, ⟨102, _⟩ => ⟨S1x512, .f32⟩
  | .hbm, ⟨103, _⟩ => ⟨S25000x512, .f32⟩
  | .hbm, ⟨104, _⟩ => ⟨S25000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_cst_1 : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_v4 : Ref sig .tc := ⟨.hbm, 55, rfl⟩
abbrev main_call0_v5 : Ref sig .tc := ⟨.hbm, 56, rfl⟩
abbrev main_call0_cst_2 : Ref sig .tc := ⟨.hbm, 57, rfl⟩
abbrev main_call0_v6 : Ref sig .tc := ⟨.hbm, 58, rfl⟩
abbrev main_call0_v7 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_cst_3 : Ref sig .tc := ⟨.hbm, 85, rfl⟩
abbrev main_call1_v13 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v34 : Ref sig .tc := ⟨.hbm, 90, rfl⟩
abbrev main_cst_8 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩

abbrev nD : Nat := 1
abbrev τ : Topo := Topo.v7x

variable {F : FTy → Type} [FloatOps F]

class Facts₀ : Prop where
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x512_0_1 : S500000x1.BroadcastsInDim S500000x512 (![0, 1] : Fin 2 → Fin S500000x512.rank)
  bcast_S_S25000x512 : S_.BroadcastsInDim S25000x512 (![] : Fin 0 → Fin S25000x512.rank)
  bcast_S512_S1x512_1 : S512.BroadcastsInDim S1x512 (![1] : Fin 1 → Fin S1x512.rank)
  bcast_S1x512_S25000x512_0_1 : S1x512.BroadcastsInDim S25000x512 (![0, 1] : Fin 2 → Fin S25000x512.rank)
  bcast_S_S25000 : S_.BroadcastsInDim S25000 (![] : Fin 0 → Fin S25000.rank)
  bcast_S25000_S25000x1_0 : S25000.BroadcastsInDim S25000x1 (![0] : Fin 1 → Fin S25000x1.rank)
  reducesTo_S25000x512_S25000_d1 : S25000x512.ReducesTo [1] S25000
  h_S_ : 0 < S_.numel
  bcast_S_S25000x1 : S_.BroadcastsInDim S25000x1 (![] : Fin 0 → Fin S25000x1.rank)
  bcast_S25000x1_S25000x512_0_1 : S25000x1.BroadcastsInDim S25000x512 (![0, 1] : Fin 2 → Fin S25000x512.rank)
  gather_S50000x512_S500000x1_S500000x512_1_0_n_n_0_1_1512_wf : GatherDims.WF S50000x512 S500000x1 S500000x512 [1] [0] [] [0] [] 1 ![1, 512]
  scatter_S25000x512_S500000x1_S500000x512_1_0_0_1_wf : ScatterDims.WF S25000x512 S500000x1 S500000x512 [1] [0] [0] 1
  dot_S25000x512_S512x512_S25000x512_1_0_0_1_n_n_wf : DotDims.WF S25000x512 S512x512 S25000x512 [1] [0] [0] [1] [] []
  gather_S100000x512_S25000x1_S25000x512_1_0_n_n_0_1_1512_wf : GatherDims.WF S100000x512 S25000x1 S25000x512 [1] [0] [] [0] [] 1 ![1, 512]

variable [Facts₀]

def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S25000x512_S500000x1_S500000x512_1_0_0_1 : ScatterDims S25000x512 S500000x1 S500000x512 where
  updateWindowDims := [1]
  insertedWindowDims := [0]
  scatterDimsToOperandDims := [0]
  indexVectorDim := 1
  wf := scatter_S25000x512_S500000x1_S500000x512_1_0_0_1_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf
def gather_S100000x512_S25000x1_S25000x512_1_0_n_n_0_1_1512 : GatherDims S100000x512 S25000x1 S25000x512 where
  offsetDims := [1]
  collapsedSliceDims := [0]
  operandBatchingDims := []
  startIndicesBatchingDims := []
  startIndexMap := [0]
  indexVectorDim := 1
  sliceSizes := ![1, 512]
  wf := gather_S100000x512_S25000x1_S25000x512_1_0_n_n_0_1_1512_wf

class Facts : Prop extends Facts₀ where

variable [Facts]
-- ==== Proof.KernelFrame.lean ====
/- The frame of the word-level program `Cert.Kernel`: its run terminates without fault and leaves the ten argument
   arrays as launched. The one region is a pipeline of thirteen points over seven windows; its body reads six
   staging buffers whole and overwrites the seventh whole. Nothing the frame claims depends on what any staging
   buffer holds, so every window is forgotten: the body is handed each buffer at arbitrary contents and hands it
   back at arbitrary contents. The arrays the windows stage are either intermediate buffers of @main (of which the
   claim says nothing) or the argument `main_arg6`, an input window's array, which no transfer writes; every other
   argument is a buffer the region never touches, and no host operation before the region writes an argument. -/
import proofs.«132914_j5334349382168_2_alg».proof.Proof.Gen.Kernel.Frame
import proofs.«132914_j5334349382168_2_alg».proof.Proof.Gen.Kernel.Skeleton

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any seven whole staging buffers -/

set_option maxHeartbeats 1000000 in
/-- The body's triple with nothing named: from each of the seven whole buffers at some contents, the body — five
    whole loads in its first part, two more whole loads, one whole unmasked store into the seventh buffer — runs to
    the continuation holding each of the seven at some contents. A whole load leaves its buffer as it was; the
    store leaves the seventh at the stored value, which is not named. -/
theorem kernelRun (c : Dev nD) (i : grid0.Coords) (arg1 : Memref sig .tc .vmem S2000x512 .f32) (harg1 : arg1.IsWhole) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole) :
    ∀ (E : Set ℕ) (K : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
        ⊢ wp frame (wpE (defs₀ (F := F)) Variants.none c none) E (cc0__fused_kernel i arg1 harg1 arg2 harg2 arg3 harg3 arg4 harg4 arg5 harg5 arg6 harg6 arg7 harg7) K := by
    intro E K
    simp only [cc0__fused_kernel_eq_skeleton]; unfold cc0__fused_kernel_skel
    simp only [k0_part1_eq_skeleton]; unfold k0_part1_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
    sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

/-! ## The pipeline's proof data -/

/-- Every window is forgotten: nothing the frame claims reads what any staging buffer holds. -/
def forgets0 : Fin 7 → Bool := fun _ => true

/-- The proof data of the one pipeline on core `c`: the arrays as the region finds them (`V`); what the body leaves
    in a window's buffer is named nowhere (every window is forgotten); the invariant is the scoped rest and the
    generator register, untouched; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! ## The body obligation, at a generic point -/

/-- What the body is called with at point `t`: the invariant, what the core owes, and each window's current staging
    buffer at some contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))

/-- What it returns: the same, each buffer again at some contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))

/-- The body at any point: the seven buffers go through `kernelRun`; the invariant and what the core owes pass
    through unread (they are the same at every point). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6⟩
  iapply ((kernelRun c (grid0.coords t) _ _ _ _ _ _ _ _ _ _ _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point, every window forgotten. -/
theorem body_obligation (c : Dev nD) : BodyObligation (dats (F := F) m 0 c) (defs₀ (F := F)) Variants.none () Set.univ forgets0 := fun t => by
  rw [bigSep_W0, bigSep_W0]
  exact sound_body m c t

/-! ## The run and the frame -/

set_option backward.isDefEq.respectTransparency.types false in
/-- Every weakly fair execution of @main on the TensorCores terminates, and in every final state each input window's
    array is as the region found it (nothing is said of the output window's), and every other unscoped buffer is as
    the region found it. -/
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame claim's post from a frame run of relational proof data whose arrays are the region-entry contents:
    `main_arg6` is the array of input window 2, which ends at its entry contents; each other argument is a buffer no
    window stages, which ends as the region found it; and no host operation before the region writes an argument. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Eq.mp (congrFun ((rdat c).ArrAt_in 2 rfl _) _) ((h c).1 2)).trans ((hA c 2).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-- THE FRAME of the word-level program, at any `F`: the run terminates without fault and the ten argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_run m ρ (fun c => (dats m 0 c).toRForget forgets0) (A_eq m) (run_main m ρ)

end Cert.Kernel.HandFrame

end
-- ==== Proof.Spec.lean ====
/-
  The result as one function of a row.

  Both programs compute, for every destination row r (of 25000), a vector of 512 numbers from the row
  a = agg[r] of aggregated messages, the row y = ysel[r] of the momentum buffer, the square weight matrix
  W and the three parameter rows b, scale, offset:

    feat_j = 0.9 · (Σ_k a_k · W_{k j} + b_j) + 0.1 · y_j
    u_j    = feat_j            if feat_j > 0,   e^{feat_j} − 1   otherwise
    μ      = (Σ_j u_j) / 512
    σ²     = (Σ_j (u_j − μ)²) / 512 + ε
    out_j  = (u_j − μ) · scale_j · (σ²)^{-1/2} + offset_j

  on the extended reals, every constant the exact value of its single-precision pattern. No row reads
  another row: this is what lets the tiled program cut the 25000 rows into blocks of 2000 and lets the last
  block carry 1000 rows that are not there.
-/
import Idealize.ShloMosaic.PureOps.Ideal
import Idealize.ShloMosaic.PureOps.Ideal.Laws

noncomputable section

namespace Cert.RowSpec

open Idealize.ShloMosaic

/-- A row of 512 extended reals. -/
abbrev Row := Fin 512 → EReal

/-- The six constants, as the values their bit patterns denote. -/
def c09 : EReal := Ideal.ofBits .f32 0x3F666666#32
def c01 : EReal := Ideal.ofBits .f32 0x3DCCCCCD#32
def cOne : EReal := Ideal.ofBits .f32 0x3F800000#32
def c512 : EReal := Ideal.ofBits .f32 0x44000000#32
def cEps : EReal := Ideal.ofBits .f32 0x3089705F#32
def cZero : EReal := Ideal.ofBits .f32 0x00000000#32

/-- The linear layer mixed with the momentum row. -/
def feat (a y : Row) (W : Fin 512 → Row) (b : Row) (j : Fin 512) : EReal :=
  c09 * ((∑ k : Fin 512, a k * W k j) + b j) + c01 * y j

/-- The exponential linear unit, written with the exponential. -/
def elu (x : EReal) : EReal := Scalar.select (Ideal.cmp .ogt x cZero) x (Ideal.exp x - cOne)

/-- The activated row. -/
def act (a y : Row) (W : Fin 512 → Row) (b : Row) : Row := fun j => elu (feat a y W b j)

/-- The mean of a row, its deviations from the mean, and the biased variance plus ε. -/
def mean (u : Row) : EReal := Ideal.div (∑ j : Fin 512, u j) c512
def dev (u : Row) : Row := fun j => u j - mean u
def var (u : Row) : EReal := Ideal.div (∑ j : Fin 512, dev u j * dev u j) c512 + cEps

/-- The normalised row. -/
def norm (u s o : Row) : Row := fun j => dev u j * s j * Ideal.rsqrt (var u) + o j

/-- The whole row function. -/
def rowOut (a y : Row) (W : Fin 512 → Row) (b s o : Row) : Row := norm (act a y W b) s o

end Cert.RowSpec

end
-- ==== Proof.LibRowLayout.lean ====
/-
  Column forms of the layout operations, read at an index written by coordinates.

  A row-wise reduction with the reduced axis kept (a mean or a variance per row) meets three layout steps:
  the vector of row sums [a] is cast to a column [a, 1]; the column is broadcast along the rows to [a, b];
  and the sum itself runs over the second coordinate of the row. Each lemma reads one of these steps at an
  index given by its coordinates.
-/
import Idealize.ShloMosaic.Lib.ValueIdx
import Idealize.ShloMosaic.Lib.ValueLayout
import Idealize.ShloMosaic.Lib.Pipeline.Value
import Idealize.ShloMosaic.PureOps.Ideal.Laws

namespace Cert.LibRowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis of `[a, b]` visits at row `i` and position `k` is `(i, k)`. -/
theorem lift_row {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- A sum over the second axis of an `[a, b]` array of extended reals, read at row `i`: the sum of the row. -/
theorem multiReduction_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRowLayout
-- ==== Proof.KVal.lean ====
/-
  The tiled program's body, read at an index.

  On one block the body holds 2000 rows of the aggregated messages (x0), 2000 rows of the momentum buffer
  (x1), the weight matrix (x2) and the three parameter rows (x3, x4, x5), and stores ONE value: at row r and
  column j the number `RowSpec.rowOut` of row r of x0, row r of x1, x2, and the three parameter rows. The
  proof splits the stored value the way the mathematics does — the activated matrix, its centring, the
  reciprocal standard deviation of each row, the final affine step — and reads each piece at an index:
  a matrix product as a sum over the shared index, a sum along a row as a sum over its columns, a column
  broadcast as the row's entry, a row broadcast as the column's entry.
-/
import proofs.«132914_j5334349382168_2_alg».proof.Proof.Gen.KernelIdeal.Skeleton
import proofs.«132914_j5334349382168_2_alg».proof.Proof.Spec
import proofs.«132914_j5334349382168_2_alg».proof.Proof.LibRowLayout

noncomputable section

namespace Cert.KernelIdeal.RowValue

open Cert.KernelIdeal Cert.KernelIdeal.Gen Idealize.ShloMosaic Idealize.ShloMosaic.ValueIdx Cert.RowSpec Cert.LibRowLayout

/-! ## The matrix product at an index -/

/-- The product's dimension numbers: rows × shared index times shared index × columns. -/
abbrev DD : DotDims S2000x512 S512x512 S2000x512 := dot_S2000x512_S512x512_S2000x512_1_0_0_1_n_n

theorem lhs0 (i : S2000x512.Idx) (q : DD.contr.Idx) : (DD.lhsIdx i q 0).val = (i 0).val := by
  unfold DotDims.lhsIdx
  rw [dif_neg (show ¬(0 : Fin S2000x512.rank) ∈ DD.lhsBatch by decide), dif_pos (show (0 : Fin S2000x512.rank) ∈ DD.lhsNonContracting by decide)]
  rfl
theorem lhs1 (i : S2000x512.Idx) (q : DD.contr.Idx) : (DD.lhsIdx i q 1).val = (q ⟨0, by decide⟩).val :=
  DD.lhsIdx_val_of_single rfl i q
theorem rhs0 (i : S2000x512.Idx) (q : DD.contr.Idx) : (DD.rhsIdx i q 0).val = (q ⟨0, by decide⟩).val :=
  DD.rhsIdx_val_of_single rfl i q
theorem rhs1 (i : S2000x512.Idx) (q : DD.contr.Idx) : (DD.rhsIdx i q 1).val = (i 1).val := by
  unfold DotDims.rhsIdx
  rw [dif_neg (show ¬(1 : Fin S512x512.rank) ∈ DD.rhsBatch by decide), dif_pos (show (1 : Fin S512x512.rank) ∈ DD.rhsNonContracting by decide)]
  rfl

/-- Entry (r, j) of the product accumulated from zero is the sum over k of A(r, k) · B(k, j). -/
theorem matmul_row (A : FVec Ideal S2000x512 .bf16) (B : FVec Ideal S512x512 .bf16) (r : Fin 2000) (j : Fin 512) :
    matmul DD none A B (constant S2000x512 .f32 0x00000000#32) (ix2 r j) = ∑ k : Fin 512, A (ix2 r k) * B (ix2 k j) := by
  simp only [matmul]
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 r j) ((contrEquiv1 DD 512 rfl rfl).symm k) = ix2 r k := funext fun a => Fin.ext (by
    match a with
    | ⟨0, _⟩ => exact lhs0 _ _
    | ⟨1, _⟩ => exact (lhs1 _ _).trans hk)
  have er : DD.rhsIdx (ix2 r j) ((contrEquiv1 DD 512 rfl rfl).symm k) = ix2 k j := funext fun a => Fin.ext (by
    match a with
    | ⟨0, _⟩ => exact (rhs0 _ _).trans hk
    | ⟨1, _⟩ => exact rhs1 _ _)
  rw [el, er]

/-! ## The body's stored value, cut where the mathematics cuts it -/

section Pieces
variable {F : FTy → Type} [FloatOps F]

/-- The linear layer on a block mixed with the momentum block. -/
def kfeat (v0 : Vec F S2000x512 .f32) (v2 : Vec F S512x512 .f32) (v6 : Vec F S1x512 .f32) (v10 : Vec F S2000x512 .f32) : FVec F S2000x512 .f32 :=
  have v1 : FVec F S2000x512 .f32 := shapeCast S2000x512 v0 shapeCasts_S2000x512_S2000x512
  have v3 : FVec F S2000x512 .bf16 := truncf .bf16 v1 bitsLt_bf16_f32
  have v4 : FVec F S512x512 .bf16 := truncf .bf16 v2 bitsLt_bf16_f32
  have cst : FVec F S2000x512 .f32 := constant S2000x512 .f32 0x00000000#32
  have v5 : FVec F S2000x512 .f32 := matmul dot_S2000x512_S512x512_S2000x512_1_0_0_1_n_n none v3 v4 cst
  have v7 : FVec F S1x512 .f32 := shapeCast S1x512 v6 shapeCasts_S1x512_S1x512
  have v8 : FVec F S2000x512 .f32 := broadcastTo S2000x512 v7 broadcasts_S1x512_S2000x512
  have v9 : FVec F S2000x512 .f32 := addf v5 v8
  have v11 : FVec F S2000x512 .f32 := shapeCast S2000x512 v10 shapeCasts_S2000x512_S2000x512
  have cst_7 : F .f32 := Scalar.ofBits .f32 0x3F666666#32
  have v12 : FVec F S2000x512 .f32 := broadcast S2000x512 cst_7
  have v13 : FVec F S2000x512 .f32 := mulf v12 v9
  have cst_8 : F .f32 := Scalar.ofBits .f32 0x3DCCCCCD#32
  have v14 : FVec F S2000x512 .f32 := broadcast S2000x512 cst_8
  have v15 : FVec F S2000x512 .f32 := mulf v14 v11
  addf v13 v15

/-- The unit, entry by entry: the entry where it is positive, its exponential less one elsewhere. -/
def kelu (v16 : FVec F S2000x512 .f32) : FVec F S2000x512 .f32 :=
  have cst_9 : F .f32 := Scalar.ofBits .f32 0x00000000#32
  have v17 : FVec F S2000x512 .f32 := broadcast S2000x512 cst_9
  have v18 : IVec S2000x512 1 := cmpf .ogt v16 v17
  have v19 : FVec F S2000x512 .f32 := exp v16
  have cst_10 : F .f32 := Scalar.ofBits .f32 0x3F800000#32
  have v20 : FVec F S2000x512 .f32 := broadcast S2000x512 cst_10
  have v21 : FVec F S2000x512 .f32 := subf v19 v20
  select v18 v16 v21

/-- The activated block. -/
def kact (v0 : Vec F S2000x512 .f32) (v2 : Vec F S512x512 .f32) (v6 : Vec F S1x512 .f32) (v10 : Vec F S2000x512 .f32) : FVec F S2000x512 .f32 :=
  kelu (kfeat v0 v2 v6 v10)

/-- A block less its row means. -/
def center (u : FVec F S2000x512 .f32) : FVec F S2000x512 .f32 :=
  subf u (broadcastTo S2000x512 (divf (shapeCast S2000x1 (multiReduction .add [1] S2000 u 0x00000000#32 reduces_S2000x512_S2000 (.inl rfl) rfl) shapeCasts_S2000_S2000x1)
    (broadcast S2000x1 (Scalar.ofBits .f32 0x44000000#32))) broadcasts_S2000x1_S2000x512)

/-- The reciprocal root of each row's mean square plus ε, as a column. -/
def rstd (w : FVec F S2000x512 .f32) : FVec F S2000x1 .f32 :=
  rsqrt (addf (divf (shapeCast S2000x1 (multiReduction .add [1] S2000 (mulf w w) 0x00000000#32 reduces_S2000x512_S2000 (.inl rfl) rfl) shapeCasts_S2000_S2000x1)
    (broadcast S2000x1 (Scalar.ofBits .f32 0x44000000#32))) (broadcast S2000x1 (Scalar.ofBits .f32 0x3089705F#32)))

/-- The body's value: the centred activated block, the column of reciprocal deviations, the scale row. -/
theorem pay2_eq (v0 : Vec F S2000x512 .f32) (v2 : Vec F S512x512 .f32) (v6 : Vec F S1x512 .f32) (v10 : Vec F S2000x512 .f32) :
    k0_pay2 v0 v2 v6 v10 = center (kact v0 v2 v6 v10) := rfl
theorem pay3_eq (v0 : Vec F S2000x512 .f32) (v2 : Vec F S512x512 .f32) (v6 : Vec F S1x512 .f32) (v10 : Vec F S2000x512 .f32) :
    k0_pay3 v0 v2 v6 v10 = rstd (k0_pay2 v0 v2 v6 v10) := rfl
theorem pay4_eq (v37 : Vec F S1x512 .f32) : k0_pay4 v37 = v37 := shapeCast_self _ _

end Pieces

/-! ## Each piece at an index, on the extended reals -/

/-- The mixed linear layer at (r, j). -/
theorem kfeat_apply (x0 x1 : Vec Ideal S2000x512 .f32) (x2 : Vec Ideal S512x512 .f32) (x3 : Vec Ideal S1x512 .f32) (r : Fin 2000) (j : Fin 512) :
    kfeat x0 x2 x3 x1 (ix2 r j)
      = feat (fun k => x0 (ix2 r k)) (fun k => x1 (ix2 r k)) (fun k n => x2 (ix2 k n)) (fun n => x3 (ix2 (0 : Fin 1) n)) j := by
  unfold kfeat
  simp only [shapeCast_self]
  show Ideal.ofBits .f32 0x3F666666#32
        * (matmul DD none (truncf .bf16 x0 bitsLt_bf16_f32) (truncf .bf16 x2 bitsLt_bf16_f32) (constant S2000x512 .f32 0x00000000#32) (ix2 r j)
            + broadcastTo S2000x512 x3 broadcasts_S1x512_S2000x512 (ix2 r j))
      + Ideal.ofBits .f32 0x3DCCCCCD#32 * x1 (ix2 r j) = _
  rw [matmul_row, broadcastTo_1b_ab_apply]
  rfl

/-- The unit at an entry. -/
theorem kelu_apply (u : FVec Ideal S2000x512 .f32) (i : S2000x512.Idx) : kelu u i = elu (u i) := rfl

/-- The activated block at (r, j) is the activated row of row r at j. -/
theorem kact_apply (x0 x1 : Vec Ideal S2000x512 .f32) (x2 : Vec Ideal S512x512 .f32) (x3 : Vec Ideal S1x512 .f32) (r : Fin 2000) (j : Fin 512) :
    kact x0 x2 x3 x1 (ix2 r j)
      = act (fun k => x0 (ix2 r k)) (fun k => x1 (ix2 r k)) (fun k n => x2 (ix2 k n)) (fun n => x3 (ix2 (0 : Fin 1) n)) j := by
  unfold kact act
  rw [kelu_apply, kfeat_apply]

/-- A centred block at (r, j): the entry less the mean of row r. -/
theorem center_apply (u : FVec Ideal S2000x512 .f32) (r : Fin 2000) (j : Fin 512) :
    center u (ix2 r j) = dev (fun k => u (ix2 r k)) j := by
  unfold center
  show u (ix2 r j) - broadcastTo S2000x512 _ broadcasts_S2000x1_S2000x512 (ix2 r j) = _
  rw [broadcastTo_a1_ab_apply]
  show u (ix2 r j) - Ideal.div (shapeCast S2000x1 _ shapeCasts_S2000_S2000x1 (ix2 r (0 : Fin 1))) (Ideal.ofBits .f32 0x44000000#32) = _
  rw [shapeCast_a_a1_apply]
  have hs := multiReduction_row u 0x00000000#32 reduces_S2000x512_S2000 (.inl rfl) rfl r
  exact (congrArg (fun s => u (ix2 r j) - Ideal.div s (Ideal.ofBits .f32 0x44000000#32)) hs).trans rfl

/-- The column of reciprocal deviations at row r. -/
theorem rstd_apply (w : FVec Ideal S2000x512 .f32) (r : Fin 2000) :
    rstd w (ix2 r (0 : Fin 1)) = Ideal.rsqrt (Ideal.div (∑ k : Fin 512, w (ix2 r k) * w (ix2 r k)) c512 + cEps) := by
  unfold rstd
  show Ideal.rsqrt (Ideal.div (shapeCast S2000x1 _ shapeCasts_S2000_S2000x1 (ix2 r (0 : Fin 1))) (Ideal.ofBits .f32 0x44000000#32) + Ideal.ofBits .f32 0x3089705F#32) = _
  rw [shapeCast_a_a1_apply]
  have hs := multiReduction_row (mulf w w) 0x00000000#32 reduces_S2000x512_S2000 (.inl rfl) rfl r
  exact (congrArg (fun s => Ideal.rsqrt (Ideal.div s (Ideal.ofBits .f32 0x44000000#32) + Ideal.ofBits .f32 0x3089705F#32)) hs).trans rfl

/-- The last step at (r, j): the centred entry times the scale, times the row's reciprocal deviation, plus the offset. -/
theorem pay1_apply (v28 : FVec Ideal S2000x512 .f32) (v36 : FVec Ideal S2000x1 .f32) (v38 : FVec Ideal S1x512 .f32) (v43 : Vec Ideal S1x512 .f32)
    (r : Fin 2000) (j : Fin 512) :
    k0_pay1 v28 v36 v38 v43 (ix2 r j) = v28 (ix2 r j) * v38 (ix2 (0 : Fin 1) j) * v36 (ix2 r (0 : Fin 1)) + v43 (ix2 (0 : Fin 1) j) := by
  unfold k0_pay1
  simp only [shapeCast_self]
  show v28 (ix2 r j) * broadcastTo S2000x512 v38 broadcasts_S1x512_S2000x512 (ix2 r j) * broadcastTo S2000x512 v36 broadcasts_S2000x1_S2000x512 (ix2 r j)
      + broadcastTo S2000x512 v43 broadcasts_S1x512_S2000x512 (ix2 r j) = _
  rw [broadcastTo_1b_ab_apply, broadcastTo_a1_ab_apply, broadcastTo_1b_ab_apply]

/-- THE BODY AT AN INDEX: what the body stores at row r, column j of its block is the row function of row r. -/
theorem body_apply (x0 x1 : Vec Ideal S2000x512 .f32) (x2 : Vec Ideal S512x512 .f32) (x3 x4 x5 : Vec Ideal S1x512 .f32) (r : Fin 2000) (j : Fin 512) :
    k0_pay1 (k0_pay2 x0 x2 x3 x1) (k0_pay3 x0 x2 x3 x1) (k0_pay4 x4) x5 (ix2 r j)
      = rowOut (fun k => x0 (ix2 r k)) (fun k => x1 (ix2 r k)) (fun k n => x2 (ix2 k n)) (fun n => x3 (ix2 (0 : Fin 1) n))
          (fun n => x4 (ix2 (0 : Fin 1) n)) (fun n => x5 (ix2 (0 : Fin 1) n)) j := by
  rw [pay1_apply, pay3_eq, pay4_eq, rstd_apply, pay2_eq]
  have hc : ∀ k : Fin 512, center (kact x0 x2 x3 x1) (ix2 r k)
      = dev (act (fun k => x0 (ix2 r k)) (fun k => x1 (ix2 r k)) (fun k n => x2 (ix2 k n)) (fun n => x3 (ix2 (0 : Fin 1) n))) k := fun k => by
    rw [center_apply]
    exact congrArg (fun u => dev u k) (funext fun n => kact_apply x0 x1 x2 x3 r n)
  simp only [hc]
  rfl

end Cert.KernelIdeal.RowValue

end
-- ==== Proof.KIdealRun.lean ====
/- The run of the idealized tiled program `Cert.KernelIdeal` with the output window named. The one region is a
   pipeline of thirteen points over seven windows: two row-blocked inputs and the row-blocked output, whose last
   block overhangs the array (so that its transfers move only the rows inside the array), and four whole-array
   inputs. The body loads its six input buffers whole and stores one value, a function of what they hold, whole
   into the output buffer. Row r of the stored value depends on row r of the two row-blocked inputs only, so on the
   rows inside the array it does not depend on what the overhanging rows of the input buffers hold. -/
import proofs.«132914_j5334349382168_2_alg».proof.Proof.Gen.KernelIdeal.Frame
import proofs.«132914_j5334349382168_2_alg».proof.Proof.Gen.KernelIdeal.Skeleton
import proofs.«132914_j5334349382168_2_alg».proof.Proof.KVal
set_option maxRecDepth 16384

noncomputable section

namespace Cert.KernelIdeal.HandRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Whole loads and the whole store -/

section Whole
variable {sig' : RefSig} {Val : EltTy → Type} {κ : Kind} {sp : Space} {s : Shape} {e : EltTy}

/-- A load through a view at the rectangle of the view's own sizes at zero offsets reads what the view reads. -/
theorem readAt_unit_zero_eq_read (v : View sig' κ sp s e) {off : Fin s.rank → ℕ} (h0 : off = fun _ => 0)
    (inb : ∀ a, off a + s.size a ≤ s.size a) (f : v.ty.Contents Val) :
    v.readAt Val (Rect.unit off s.size inb).toLoadRect f = v.read Val f := by
  subst h0
  funext x
  rw [View.readAt_apply]
  exact congrArg (v.read Val f) (Rect.emb_whole_apply s x)

/-- So a whole load of a whole memref held at the raw contents that read `X` reads `X`. -/
theorem readAt_unit_zero_unread {m : Memref sig' κ sp s e} (h : m.IsWhole) {off : Fin s.rank → ℕ} (h0 : off = fun _ => 0)
    (inb : ∀ a, off a + s.size a ≤ s.size a) (X : s.Idx → Val e) :
    m.view.readAt Val (Rect.unit off s.size inb).toLoadRect (h.unread X) = X :=
  (readAt_unit_zero_eq_read m.view h0 inb _).trans (h.read_unread X)

/-- One unmasked store through the rectangle of the view's own sizes at zero offsets: the view reads the payload. -/
theorem read_writes_unit_zero (v : View sig' κ sp s e) {off : Fin s.rank → ℕ} (h0 : off = fun _ => 0)
    (inb : ∀ a, off a + s.size a ≤ s.size a) (f : v.ty.Contents Val) (w : s.Idx → Val e) :
    v.read Val (v.writes Val f [⟨Rect.unit off s.size inb, w⟩]) = w := by
  subst h0
  exact View.read_writes_whole v f w

end Whole

theorem zero2 : (![0, 0] : Fin 2 → ℕ) = fun _ => 0 := funext fun a => by fin_cases a <;> rfl

/-- What the body stores, from what its six input buffers hold. -/
def bodyOut (x0 x1 : Vec F S2000x512 .f32) (x2 : Vec F S512x512 .f32) (x3 x4 x5 : Vec F S1x512 .f32) : FVec F S2000x512 .f32 :=
  k0_pay1 (k0_pay2 x0 x2 x3 x1) (k0_pay3 x0 x2 x3 x1) (k0_pay4 x4) x5

set_option maxHeartbeats 1000000 in
/-- The body's triple: on seven whole buffers, the six inputs' at contents `x0 … x5` and the output's at anything, the
    body — whole loads of the six inputs and of the output, one whole unmasked store into the output — runs to the
    continuation holding the inputs' as they were and the output's at `bodyOut` of the inputs'. -/
theorem sound_kernel (c : Dev nD) (E : Set ℕ) (i : grid0.Coords) (arg1 : Memref sig .tc .vmem S2000x512 .f32) (harg1 : arg1.IsWhole) (arg2 : Memref sig .tc .vmem S2000x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 x1 : Vec F S2000x512 .f32) (x2 : Vec F S512x512 .f32) (x3 x4 x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (bodyOut x0 x1 x2 x3 x4 x5)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  have e0 := readAt_unit_zero_unread (Val := Elt F) harg1 zero2 inb_S2000x512_S2000x512_0_0 x0
  have e1 := readAt_unit_zero_unread (Val := Elt F) harg2 zero2 inb_S2000x512_S2000x512_0_0 x1
  have e2 := readAt_unit_zero_unread (Val := Elt F) harg3 zero2 inb_S512x512_S512x512_0_0 x2
  have e3 := readAt_unit_zero_unread (Val := Elt F) harg4 zero2 inb_S1x512_S1x512_0_0 x3
  have e4 := readAt_unit_zero_unread (Val := Elt F) harg5 zero2 inb_S1x512_S1x512_0_0 x4
  have e5 := readAt_unit_zero_unread (Val := Elt F) harg6 zero2 inb_S1x512_S1x512_0_0 x5
  refine (read_writes_unit_zero (Val := Elt F) arg7.view zero2 inb_S2000x512_S2000x512_0_0 f6 _).trans ?_
  rw [e0, e1, e2, e3, e4, e5]
  rfl

variable (m : (ℓ : Loc nD τ sig) → Buf (Elt F) ℓ) (ρ : Dev nD → PrngReg)

/-! ## The pipeline's proof data -/

/-- The proof data of the one pipeline on core `c`: the arrays as the region finds them (`V`). After the body at point
    `t`: each row-blocked input's buffer holds its block on the rows inside the array (the zero word on the rows past
    the array's end, which no obligation states); each whole-array input's buffer holds its block; the output's
    buffer holds what the body stores from those. The invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => iblk m c 4 t
    | ⟨5, _⟩ => iblk m c 5 t
    | ⟨6, _⟩ => bodyOut (win0_0.fill (grid0.coords t) (fun _ => Scalar.ofBits .f32 0#32) (iblk m c 0 t)) (win0_1.fill (grid0.coords t) (fun _ => Scalar.ofBits .f32 0#32) (iblk m c 1 t))
        (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = win0_0.fill (grid0.coords t) (fun _ => Scalar.ofBits .f32 0#32) (iblk m c 0 t) := by dsimp only [dats]
theorem after0_1 (c : Dev nD) (t : Fin cfg0.N) : (dats m 0 c).after 1 t = win0_1.fill (grid0.coords t) (fun _ => Scalar.ofBits .f32 0#32) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = bodyOut (win0_0.fill (grid0.coords t) (fun _ => Scalar.ofBits .f32 0#32) (iblk m c 0 t)) (win0_1.fill (grid0.coords t) (fun _ => Scalar.ofBits .f32 0#32) (iblk m c 1 t))
        (iblk m c 2 t) (iblk m c 3 t) (iblk m c 4 t) (iblk m c 5 t) := by dsimp only [dats]

/-- What the body finds. A row-blocked input's buffer, fetched at every point: its block on the rows inside the
    array, `d` past them; -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- a whole-array input's buffer: its block, fetched at this point or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The rows inside the array do not see the rows past its end -/

/-- On the part a window's transfer moves, the filled buffer does not depend on what filled the rest. -/
theorem fill_indep {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The three row-blocked windows have one index map and one cut: the rows a transfer of the output's window moves are
    the rows a transfer of either row-blocked input's window moves, -/
theorem xsize6_eq0 (i : grid0.Coords) : win0_6.xsize i = win0_0.xsize i := rfl
theorem xsize6_eq1 (i : grid0.Coords) : win0_6.xsize i = win0_1.xsize i := rfl
/-- and every column is moved. -/
theorem xsize0_col (i : grid0.Coords) : win0_0.xsize i 1 = 512 := rfl
theorem xsize1_col (i : grid0.Coords) : win0_1.xsize i 1 = 512 := rfl

/-- So an element in a row the output's transfer moves is in the part either row-blocked input's transfer moves. -/
theorem moved0 (i : grid0.Coords) (r : Fin 2000) (hr : r.val < win0_6.xsize i 0) (k : Fin 512) :
    win0_0.moved i (ix2 r k) = true :=
  (win0_0.moved_iff i _).mpr fun a => match a with
    | ⟨0, _⟩ => hr
    | ⟨1, _⟩ => (k.isLt.trans_eq (xsize0_col i).symm)

theorem moved1 (i : grid0.Coords) (r : Fin 2000) (hr : r.val < win0_6.xsize i 0) (k : Fin 512) :
    win0_1.moved i (ix2 r k) = true :=
  (win0_1.moved_iff i _).mpr fun a => match a with
    | ⟨0, _⟩ => hr
    | ⟨1, _⟩ => (k.isLt.trans_eq (xsize1_col i).symm)

/-- THE ROWS INSIDE THE ARRAY: on the rows the output's transfer moves, what the body stores does not depend on what
    the row-blocked inputs' buffers hold past the array's end — row r of the stored value is a function of row r of
    the two row-blocked inputs, and a row inside the array is the block's row whatever filled the rest. -/
theorem cut_bodyOut_indep (i : grid0.Coords) (d0 d0' d1 d1' : S2000x512.Idx → Elt Ideal .f32)
    (b0 : (win0_0.xblock i).Idx → Elt Ideal .f32) (b1 : (win0_1.xblock i).Idx → Elt Ideal .f32)
    (x2 : Vec Ideal S512x512 .f32) (x3 x4 x5 : Vec Ideal S1x512 .f32) :
    win0_6.cut i (bodyOut (win0_0.fill i d0 b0) (win0_1.fill i d1 b1) x2 x3 x4 x5)
      = win0_6.cut i (bodyOut (win0_0.fill i d0' b0) (win0_1.fill i d1' b1) x2 x3 x4 x5) := by
  funext j
  have hr : (j 0).val < win0_6.xsize i 0 := (j 0).isLt
  have hk : (j 1).val < 512 := (j 1).isLt.trans_eq (xsize0_col i)
  have h2000 : (j 0).val < 2000 := lt_of_lt_of_le hr (win0_6.xsize_le i 0)
  have hj : win0_6.xinj i j = ix2 (⟨(j 0).val, h2000⟩ : Fin 2000) (⟨(j 1).val, hk⟩ : Fin 512) :=
    (eq_ix2 (n0 := 2000) (n1 := 512) (win0_6.xinj i j)).trans rfl
  show bodyOut _ _ x2 x3 x4 x5 (win0_6.xinj i j) = bodyOut _ _ x2 x3 x4 x5 (win0_6.xinj i j)
  rw [hj]
  refine (Cert.KernelIdeal.RowValue.body_apply _ _ x2 x3 x4 x5 ⟨(j 0).val, h2000⟩ ⟨(j 1).val, hk⟩).trans ?_
  refine Eq.trans ?_ (Cert.KernelIdeal.RowValue.body_apply _ _ x2 x3 x4 x5 ⟨(j 0).val, h2000⟩ ⟨(j 1).val, hk⟩).symm
  have h0 : (fun k => win0_0.fill i d0 b0 (ix2 (⟨(j 0).val, h2000⟩ : Fin 2000) k))
      = fun k => win0_0.fill i d0' b0 (ix2 (⟨(j 0).val, h2000⟩ : Fin 2000) k) :=
    funext fun k => fill_indep win0_0 i d0 d0' b0 _ (moved0 i ⟨(j 0).val, h2000⟩ hr k)
  have h1 : (fun k => win0_1.fill i d1 b1 (ix2 (⟨(j 0).val, h2000⟩ : Fin 2000) k))
      = fun k => win0_1.fill i d1' b1 (ix2 (⟨(j 0).val, h2000⟩ : Fin 2000) k) :=
    funext fun k => fill_indep win0_1 i d1 d1' b1 _ (moved1 i ⟨(j 0).val, h2000⟩ hr k)
  rw [h0, h1]

/-! ## The body obligation, at a generic point -/

section AtIdeal

local notation "𝕄ᵢ" => MT nD τ sig Unit (Elt Ideal) ℕ (UR sig nD τ) ℕ

variable (m : (ℓ : Loc nD τ sig) → Buf (Elt Ideal) ℓ) (ρ : Dev nD → PrngReg)

/-- What the body is called with at point `t`: the invariant, what the core owes, and each window's current staging
    buffer at what it then holds. -/
def bodyPre (c : Dev nD) (t : Fin cfg0.N) : sProp 𝕄ᵢ :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns: a whole-array input's buffer at what the body leaves; a row-blocked window's buffer at what the
    body leaves on the rows inside the array and at something on the rows past its end. -/
def bodyPost (c : Dev nD) (t : Fin cfg0.N) : sProp 𝕄ᵢ :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare (win0_6.fill (grid0.coords t) d (win0_6.cut (grid0.coords t) ((dats m 0 c).after 6 t)))))

/-- The body at any point. The row-blocked inputs' buffers arrive holding their blocks on the rows inside the array
    and some `d0`, `d1` past them, the whole-array inputs' buffers their blocks, the output's buffer anything; the body
    leaves the inputs' as they were and the output's at what it stores from them. The inputs' buffers are handed back
    with the same `d0`, `d1`; the output's with the stored value itself past the array's end: on the rows inside the
    array the stored value is what the proof data names, whatever `d0`, `d1` are (`cut_bodyOut_indep`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := Ideal) c Set.univ (grid0.coords t) _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0; rw [win0_0.cut_fill]; iexact H0
  isplitl [H1]
  · iexists d1; rw [win0_1.cut_fill]; iexact H1
  isplitl [H2]; · iexact H2
  isplitl [H3]; · iexact H3
  isplitl [H4]; · iexact H4
  isplitl [H5]; · iexact H5
  iexists bodyOut (win0_0.fill (grid0.coords t) d0 (iblk m c 0 t)) (win0_1.fill (grid0.coords t) d1 (iblk m c 1 t))
    (iblk m c 2 t) (iblk m c 3 t) (iblk m c 4 t) (iblk m c 5 t)
  rw [win0_6.fill_congr_cut (grid0.coords t) (cut_bodyOut_indep (grid0.coords t) d0 _ d1 _
    (iblk m c 0 t) (iblk m c 1 t) (iblk m c 2 t) (iblk m c 3 t) (iblk m c 4 t) (iblk m c 5 t))]
  iexact H6

/-- The library's body obligation, at every point: no point is idle; the three row-blocked windows are stated on the
    rows inside the array only. -/
theorem body_obligation (c : Dev nD) : BodyObligationLoose (dats (F := Ideal) m 0 c) (defs₀ (F := Ideal)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- THE FRAME of the idealized tiled program: the run terminates without fault and the ten argument arrays end as
    launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end AtIdeal

end Cert.KernelIdeal.HandRun

end
-- ==== Proof.KFinal.lean ====
/-
  From blocks to the array.

  The pipeline cuts the 25000 rows into 13 blocks of 2000; the last block holds rows 24000 … 24999 and 1000
  rows that are not in the array. At point t the body stores, at row r of its block, the row function of row
  r of the two staged blocks; the write-back copies the rows that are in the array. So what point t writes
  back is block t of ONE array-wide function G: at (i, j), the row function of row i of the aggregated
  messages and row i of the selected momentum rows. The rows outside the array never enter: a row of the
  result reads only the same row of the inputs. The 13 blocks cover the array, so the array ends at G.
-/
import proofs.«132914_j5334349382168_2_alg».proof.Proof.Gen.KernelIdeal.Frame
import proofs.«132914_j5334349382168_2_alg».proof.Proof.KVal
import Idealize.ShloMosaic.Lib.Pipeline.Value

noncomputable section

namespace Cert.KernelIdeal.Final

open Cert.KernelIdeal Cert.KernelIdeal.Gen Idealize.ShloMosaic Idealize.ShloMosaic.TcCoe Idealize.ShloMosaic.ValueIdx Cert.RowSpec
open Idealize.SL Idealize.SL.Sem
open Idealize.ShloMosaic.Rounds
open Idealize.ShloMosaic.Pipeline (Dat Cfg Window)

variable (m : (ℓ : Loc nD τ sig) → Buf (Elt Ideal) ℓ)

/-- The array-wide function: at (i, j) the row function of row i of the two row-blocked arrays the
    pipeline reads, the weight matrix and the three parameter rows, as the region finds them. -/
def G (c : Dev nD) : S25000x512.Idx → EReal := fun i =>
  rowOut (fun k => V m c main_v12 (ix2 (⟨(i 0).val, idx2_lt0 i⟩ : Fin 25000) k))
    (fun k => V m c main_v19 (ix2 (⟨(i 0).val, idx2_lt0 i⟩ : Fin 25000) k))
    (fun k n => V m c main_arg6 (ix2 k n))
    (fun n => V m c main_v20 (ix2 (0 : Fin 1) n)) (fun n => V m c main_v21 (ix2 (0 : Fin 1) n)) (fun n => V m c main_v22 (ix2 (0 : Fin 1) n))
    (⟨(i 1).val, idx2_lt1 i⟩ : Fin 512)

/-- The printed index maps and cuts, decided over the grid: the three row-blocked windows move together
    and are cut alike; no window is cut along the columns; the four whole-array windows stay at block 0. -/
theorem grid_facts : ∀ t : Fin cfg0.N,
    win0_0.index t (0 : Fin 2) = win0_6.index t (0 : Fin 2) ∧ win0_1.index t (0 : Fin 2) = win0_6.index t (0 : Fin 2)
    ∧ win0_0.index t (1 : Fin 2) = 0 ∧ win0_1.index t (1 : Fin 2) = 0 ∧ win0_6.index t (1 : Fin 2) = 0
    ∧ win0_0.xsize (grid0.coords t) (0 : Fin 2) = win0_6.xsize (grid0.coords t) (0 : Fin 2)
    ∧ win0_1.xsize (grid0.coords t) (0 : Fin 2) = win0_6.xsize (grid0.coords t) (0 : Fin 2)
    ∧ win0_0.xsize (grid0.coords t) (1 : Fin 2) = 512 ∧ win0_1.xsize (grid0.coords t) (1 : Fin 2) = 512
    ∧ win0_6.xsize (grid0.coords t) (1 : Fin 2) = 512
    ∧ win0_6.xsize (grid0.coords t) (0 : Fin 2) ≤ 2000
    ∧ win0_6.index t (0 : Fin 2) * 2000 + win0_6.xsize (grid0.coords t) (0 : Fin 2) ≤ 25000
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- A filled block at an index the transfer moves holds the fetched block's entry there, whatever filled the rest. -/
theorem fill_at {α : Type} (w : Pipeline.Window sig grid0) (i : grid0.Coords) (d : w.block.Idx → α) (g : (w.xblock i).Idx → α)
    (j : w.block.Idx) (h : ∀ a, (j a).val < w.xsize i a) : w.fill i d g j = g (fun a => ⟨(j a).val, h a⟩) := by
  unfold Pipeline.Window.fill; rw [dif_pos ((w.moved_iff i j).mpr h)]

/-! ## Each staged block read where the array index says -/

/-- Row r of the first row block at point t, on a row inside the array, is row (block offset + r) of the
    aggregated messages, whatever fills the rows outside. -/
theorem row0 (c : Dev nD) (z0 : S2000x512.Idx → EReal) (t : Fin cfg0.N) (r : Fin 2000) (k : Fin 512) (i0 : Fin 25000)
    (hr : r.val < win0_6.xsize (grid0.coords t) (0 : Fin 2)) (hi0 : i0.val = win0_6.index t (0 : Fin 2) * 2000 + r.val) :
    win0_0.fill (grid0.coords t) z0 (iblk m c 0 t) (ix2 r k) = V m c main_v12 (ix2 i0 k) := by
  obtain ⟨e0, -, e2, -, -, e5, -, e7, -⟩ := grid_facts t
  have hfill : ∀ a : Fin 2, ((ix2 r k : S2000x512.Idx) a).val < win0_0.xsize (grid0.coords t) a := fun a => by
    match a with
    | ⟨0, _⟩ => show r.val < win0_0.xsize (grid0.coords t) (0 : Fin 2); rw [e5]; exact hr
    | ⟨1, _⟩ => show k.val < win0_0.xsize (grid0.coords t) (1 : Fin 2); rw [e7]; exact k.isLt
  rw [fill_at win0_0 (grid0.coords t) z0 (iblk m c 0 t) _ hfill]
  show V m c main_v12 (((cfg0.win 0).blk t).view.emb _) = V m c main_v12 _
  refine congrArg (V m c main_v12) (funext fun a => Fin.ext ?_)
  match a with
  | ⟨0, _⟩ => show win0_0.index t (0 : Fin 2) * 2000 + 1 * r.val = i0.val; rw [e0, hi0]; omega
  | ⟨1, _⟩ => show win0_0.index t (1 : Fin 2) * 512 + 1 * k.val = k.val; rw [e2]; omega

/-- The same for the second row block and the selected momentum rows. -/
theorem row1 (c : Dev nD) (z1 : S2000x512.Idx → EReal) (t : Fin cfg0.N) (r : Fin 2000) (k : Fin 512) (i0 : Fin 25000)
    (hr : r.val < win0_6.xsize (grid0.coords t) (0 : Fin 2)) (hi0 : i0.val = win0_6.index t (0 : Fin 2) * 2000 + r.val) :
    win0_1.fill (grid0.coords t) z1 (iblk m c 1 t) (ix2 r k) = V m c main_v19 (ix2 i0 k) := by
  obtain ⟨-, e1, -, e3, -, -, e6, -, e8, -⟩ := grid_facts t
  have hfill : ∀ a : Fin 2, ((ix2 r k : S2000x512.Idx) a).val < win0_1.xsize (grid0.coords t) a := fun a => by
    match a with
    | ⟨0, _⟩ => show r.val < win0_1.xsize (grid0.coords t) (0 : Fin 2); rw [e6]; exact hr
    | ⟨1, _⟩ => show k.val < win0_1.xsize (grid0.coords t) (1 : Fin 2); rw [e8]; exact k.isLt
  rw [fill_at win0_1 (grid0.coords t) z1 (iblk m c 1 t) _ hfill]
  show V m c main_v19 (((cfg0.win 1).blk t).view.emb _) = V m c main_v19 _
  refine congrArg (V m c main_v19) (funext fun a => Fin.ext ?_)
  match a with
  | ⟨0, _⟩ => show win0_1.index t (0 : Fin 2) * 2000 + 1 * r.val = i0.val; rw [e1, hi0]; omega
  | ⟨1, _⟩ => show win0_1.index t (1 : Fin 2) * 512 + 1 * k.val = k.val; rw [e3]; omega

/-- The weight block is the weight matrix. -/
theorem blk2 (c : Dev nD) (t : Fin cfg0.N) (k n : Fin 512) : iblk m c 2 t (ix2 k n) = V m c main_arg6 (ix2 k n) := by
  obtain ⟨-, -, -, -, -, -, -, -, -, -, -, -, e12, e13, -⟩ := grid_facts t
  show V m c main_arg6 (((cfg0.win 2).blk t).view.emb _) = V m c main_arg6 _
  refine congrArg (V m c main_arg6) (funext fun a => Fin.ext ?_)
  match a with
  | ⟨0, _⟩ => show win0_2.index t (0 : Fin 2) * 512 + 1 * k.val = k.val; rw [e12]; omega
  | ⟨1, _⟩ => show win0_2.index t (1 : Fin 2) * 512 + 1 * n.val = n.val; rw [e13]; omega

/-- The three parameter blocks are the three one-row matrices. -/
theorem blk3 (c : Dev nD) (t : Fin cfg0.N) (n : Fin 512) : iblk m c 3 t (ix2 (0 : Fin 1) n) = V m c main_v20 (ix2 (0 : Fin 1) n) := by
  obtain ⟨-, -, -, -, -, -, -, -, -, -, -, -, -, -, e14, e15, -⟩ := grid_facts t
  show V m c main_v20 (((cfg0.win 3).blk t).view.emb _) = V m c main_v20 _
  refine congrArg (V m c main_v20) (funext fun a => Fin.ext ?_)
  match a with
  | ⟨0, _⟩ => show win0_3.index t (0 : Fin 2) * 1 + 1 * 0 = 0; rw [e14]
  | ⟨1, _⟩ => show win0_3.index t (1 : Fin 2) * 512 + 1 * n.val = n.val; rw [e15]; omega
theorem blk4 (c : Dev nD) (t : Fin cfg0.N) (n : Fin 512) : iblk m c 4 t (ix2 (0 : Fin 1) n) = V m c main_v21 (ix2 (0 : Fin 1) n) := by
  obtain ⟨-, -, -, -, -, -, -, -, -, -, -, -, -, -, -, -, e16, e17, -⟩ := grid_facts t
  show V m c main_v21 (((cfg0.win 4).blk t).view.emb _) = V m c main_v21 _
  refine congrArg (V m c main_v21) (funext fun a => Fin.ext ?_)
  match a with
  | ⟨0, _⟩ => show win0_4.index t (0 : Fin 2) * 1 + 1 * 0 = 0; rw [e16]
  | ⟨1, _⟩ => show win0_4.index t (1 : Fin 2) * 512 + 1 * n.val = n.val; rw [e17]; omega
theorem blk5 (c : Dev nD) (t : Fin cfg0.N) (n : Fin 512) : iblk m c 5 t (ix2 (0 : Fin 1) n) = V m c main_v22 (ix2 (0 : Fin 1) n) := by
  obtain ⟨-, -, -, -, -, -, -, -, -, -, -, -, -, -, -, -, -, -, e18, e19⟩ := grid_facts t
  show V m c main_v22 (((cfg0.win 5).blk t).view.emb _) = V m c main_v22 _
  refine congrArg (V m c main_v22) (funext fun a => Fin.ext ?_)
  match a with
  | ⟨0, _⟩ => show win0_5.index t (0 : Fin 2) * 1 + 1 * 0 = 0; rw [e18]
  | ⟨1, _⟩ => show win0_5.index t (1 : Fin 2) * 512 + 1 * n.val = n.val; rw [e19]; omega

/-! ## What a point writes back -/

/-- The staged blocks the body's stored value is computed from, at point t: the two row blocks as the fetch
    leaves them (the rows outside the array filled with z0, z1), and the four whole-array blocks. -/
abbrev stored (c : Dev nD) (z0 z1 : S2000x512.Idx → EReal) (t : Fin cfg0.N) : S2000x512.Idx → EReal :=
  k0_pay1
    (k0_pay2 (win0_0.fill (grid0.coords t) z0 (iblk m c 0 t)) (iblk m c 2 t) (iblk m c 3 t) (win0_1.fill (grid0.coords t) z1 (iblk m c 1 t)))
    (k0_pay3 (win0_0.fill (grid0.coords t) z0 (iblk m c 0 t)) (iblk m c 2 t) (iblk m c 3 t) (win0_1.fill (grid0.coords t) z1 (iblk m c 1 t)))
    (k0_pay4 (iblk m c 4 t)) (iblk m c 5 t)

/-- The stored value at a row inside the array: the array-wide function at the array's row. -/
theorem stored_apply (c : Dev nD) (z0 z1 : S2000x512.Idx → EReal) (t : Fin cfg0.N) (r : Fin 2000) (k : Fin 512) (i : S25000x512.Idx)
    (hr : r.val < win0_6.xsize (grid0.coords t) (0 : Fin 2)) (hi0 : (i 0).val = win0_6.index t (0 : Fin 2) * 2000 + r.val) (hi1 : (i 1).val = k.val) :
    stored m c z0 z1 t (ix2 r k) = G m c i := by
  unfold stored
  rw [RowValue.body_apply]
  unfold G
  have hk : k = (⟨(i 1).val, idx2_lt1 i⟩ : Fin 512) := Fin.ext hi1.symm
  rw [← hk]
  refine congrArg (fun f : Fin 512 → EReal => f k) ?_
  simp only [row0 m c z0 t r _ (⟨(i 0).val, idx2_lt0 i⟩ : Fin 25000) hr hi0, row1 m c z1 t r _ (⟨(i 0).val, idx2_lt0 i⟩ : Fin 25000) hr hi0,
    blk2, blk3, blk4, blk5]

/-- THE STORED VALUE ON THE ROWS INSIDE THE ARRAY is block t of G, whatever fills the rows outside. -/
theorem cut_stored (c : Dev nD) (z0 z1 : S2000x512.Idx → EReal) (t : Fin cfg0.N) :
    win0_6.cut (grid0.coords t) (stored m c z0 z1 t) = ((cfg0.win 6).blk t).view.read (Elt Ideal) (G m c) := by
  obtain ⟨-, -, -, -, e4, -, -, -, -, e9, e10, -⟩ := grid_facts t
  funext y
  have hy0 : (y 0).val < win0_6.xsize (grid0.coords t) (0 : Fin 2) := (y 0).isLt
  have hy1 : (y 1).val < 512 := by
    have h : (y 1).val < win0_6.xsize (grid0.coords t) (1 : Fin 2) := (y 1).isLt
    rw [e9] at h; exact h
  have hr : (y 0).val < 2000 := by omega
  have hx : win0_6.xinj (grid0.coords t) y = ix2 (⟨(y 0).val, hr⟩ : Fin 2000) (⟨(y 1).val, hy1⟩ : Fin 512) :=
    funext fun a => Fin.ext (by match a with | ⟨0, _⟩ => rfl | ⟨1, _⟩ => rfl)
  show stored m c z0 z1 t (win0_6.xinj (grid0.coords t) y) = G m c (((cfg0.win 6).blk t).view.emb y)
  rw [hx]
  refine stored_apply m c z0 z1 t _ _ _ hy0 ?_ ?_
  · show win0_6.index t (0 : Fin 2) * 2000 + 1 * (y 0).val = win0_6.index t (0 : Fin 2) * 2000 + (y 0).val; omega
  · show win0_6.index t (1 : Fin 2) * 512 + 1 * (y 1).val = (y 1).val; rw [e4]; omega

end Cert.KernelIdeal.Final

end
-- ==== Proof.KCover.lean ====
/-
  The thirteen blocks cover the array.

  Block t holds rows 2000·t … 2000·t + 1999 of the array, the last block (t = 12) rows 24000 … 24999 only.
  Row i lies in block ⌊i / 2000⌋. So when every point writes back its block of one array-wide function, the
  array ends holding that function.
-/
import proofs.«132914_j5334349382168_2_alg».proof.Proof.KFinal

noncomputable section

namespace Cert.KernelIdeal.Final

open Cert.KernelIdeal Cert.KernelIdeal.Gen Idealize.ShloMosaic Idealize.ShloMosaic.TcCoe Idealize.ShloMosaic.ValueIdx Cert.RowSpec
open Idealize.SL Idealize.SL.Sem
open Idealize.ShloMosaic.Rounds
open Idealize.ShloMosaic.Pipeline (Dat Cfg Window)

variable (m : (ℓ : Loc nD τ sig) → Buf (Elt Ideal) ℓ)

/-- Where the output's blocks sit, decided over the grid: block t starts at row 2000·t, spans all 512
    columns, and has 2000 rows, the last one 1000. -/
theorem out_blocks : ∀ t : Fin cfg0.N,
    win0_6.index t (0 : Fin 2) = t.val ∧ win0_6.index t (1 : Fin 2) = 0
    ∧ win0_6.xsize (grid0.coords t) (1 : Fin 2) = 512
    ∧ (t.val < 12 → win0_6.xsize (grid0.coords t) (0 : Fin 2) = 2000)
    ∧ (t.val = 12 → win0_6.xsize (grid0.coords t) (0 : Fin 2) = 1000) :=
  (by decide +kernel : ∀ t : Fin grid0.N, _)

/-- An index of the array is in point t's block iff each coordinate is in the block's range on its axis. -/
theorem mem_blk6 (t : Fin cfg0.N) (i : S25000x512.Idx) :
    i ∈ ((cfg0.win 6).blk t).view.set ↔ ∀ a : Fin 2, win0_6.index t a * S2000x512.size a ≤ (i a).val
      ∧ (i a).val < win0_6.index t a * S2000x512.size a + win0_6.xsize (grid0.coords t) a := by
  show i ∈ ((View.whole main_v23).slice (win0_6.rect t)).set ↔ _
  rw [View.set_slice_whole, Rect.mem_set_unit]
  exact Iff.rfl

/-- Every index of the array is in some point's block. -/
theorem cover6 (i : S25000x512.Idx) : ∃ t : Fin cfg0.N, (cfg0.win 6).flush t = true ∧ i ∈ ((cfg0.win 6).blk t).view.set := by
  have hi0 : (i 0).val < 25000 := idx2_lt0 i
  have hi1 : (i 1).val < 512 := idx2_lt1 i
  have hN : cfg0.N = 13 := N_0
  let t : Fin cfg0.N := ⟨(i 0).val / 2000, by rw [hN]; omega⟩
  obtain ⟨f0, f1, f2, f3, f4⟩ := out_blocks t
  have ht : t.val = (i 0).val / 2000 := rfl
  refine ⟨t, flush0_6 t, ?_⟩
  rw [mem_blk6]
  intro a
  match a with
  | ⟨0, _⟩ =>
    show win0_6.index t (0 : Fin 2) * 2000 ≤ (i 0).val ∧ (i 0).val < win0_6.index t (0 : Fin 2) * 2000 + win0_6.xsize (grid0.coords t) (0 : Fin 2)
    rw [f0]
    by_cases h12 : t.val < 12
    · rw [f3 h12]; omega
    · have h : t.val = 12 := by omega
      rw [f4 h]; omega
  | ⟨1, _⟩ =>
    show win0_6.index t (1 : Fin 2) * 512 ≤ (i 1).val ∧ (i 1).val < win0_6.index t (1 : Fin 2) * 512 + win0_6.xsize (grid0.coords t) (1 : Fin 2)
    rw [f1, f2]; omega

/-- THE ARRAY AFTER THE RUN: for any proof data whose output block after the body is the stored value (the rows
    outside the array filled with anything), the output array ends holding the array-wide function. -/
theorem final6 {c : Dev nD} (dat : Dat τ (Elt Ideal) Unit ℕ (UR sig nD τ) ℕ cfg0 c) (z0 z1 : S2000x512.Idx → EReal)
    (hafter : ∀ t, dat.after 6 t = stored m c z0 z1 t) : dat.arrAt 6 cfg0.N = G m c :=
  dat.arrAt_eq_of_cover 6 (G m c)
    (fun t _ => by
      show (cfg0.win 6).cut (grid0.coords t) (dat.after 6 t) = _
      rw [hafter]; exact cut_stored m c z0 z1 t)
    cover6

end Cert.KernelIdeal.Final

end
-- ==== Proof.KRun.lean ====
/-
  The tiled program's run, read: every weakly fair execution ends with the result array holding the
  array-wide function G of the arrays the pipeline read, and the ten argument arrays as they were.
  The result array is what the thirteen write-backs leave (the blocks cover it); an argument array is
  either one the pipeline only reads or one it never touches.
-/
import proofs.«132914_j5334349382168_2_alg».proof.Proof.KIdealRun
import proofs.«132914_j5334349382168_2_alg».proof.Proof.KCover

noncomputable section

namespace Cert.KernelIdeal.Final

open Cert.KernelIdeal Cert.KernelIdeal.Gen Idealize.ShloMosaic Idealize.ShloMosaic.TcCoe
open Idealize.SL Idealize.SL.Sem
open Idealize.ShloMosaic.Rounds
open Idealize.ShloMosaic.Pipeline (Dat Cfg Window)

variable (m : (ℓ : Loc nD τ sig) → Buf (Elt Ideal) ℓ) (ρ : Dev nD → PrngReg)

/-- The output array after the run is G. -/
theorem arr6 (c : Dev nD) : (HandRun.dats m 0 c).arrAt 6 cfg0.N = G m c := by
  refine final6 m (HandRun.dats m 0 c) (fun _ => Scalar.ofBits (F := Ideal) .f32 0#32) (fun _ => Scalar.ofBits (F := Ideal) .f32 0#32) (fun t => ?_)
  rw [HandRun.after0_6]
  unfold HandRun.bodyOut
  rfl

theorem run : θ_run defs (onTc (τ := τ) (main (F := Ideal))) ⟨m, fun _ => 0, ρ⟩ (fun r => ∀ c : Dev nD,
      r.2.mem ((c.tc : Thread nD τ).loc main_v23) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 6).trans (arr6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 2).trans (((HandRun.dats m 0 c).arrAt_in 2 rfl _).trans ((HandRun.A_eq m c 2).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (HandRun.run_main m ρ)

end Cert.KernelIdeal.Final

end
-- ==== Proof.RefOps.lean ====
/- The reference's @main read as one straight line of host operations. The three outlined functions (the exponential-linear unit, the row variance, and the selects they call) are written out at their call sites over the buffers each call names: a call of a function is its body run on the operands. -/
import proofs.«132914_j5334349382168_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 95 operations in order, the calls unfolded: thirty-six of @main's own up to the blend of the two
    gathered stages, the exponential-linear unit's fifteen (its two comparisons against zero, the inner select with
    its converted and broadcast zero, the exponential minus one, the product with one, the outer select), seven
    more of @main's (the row mean), the row variance's twenty-three (mean, centred square, its sum over the row,
    the divisor `512 - 0`, the quotient, the guard that selects a not-a-number when the divisor is not positive),
    and @main's last fourteen (the normalisation, scale and offset). -/
abbrev ops : List (HloOp τ sig (Elt F)) :=
  [
    unary main_arg3 main_v0 (broadcastInDim S500000x1 ![0] bcast_S500000_S500000x1_0 : (⟨S500000, .f32⟩ : BufTy).Contents (Elt F) → (⟨S500000x1, .f32⟩ : BufTy).Contents (Elt F)),
    nullary main_c (constantI S_ 32 0#32),
    unary main_c main_v1 (broadcastInDim S500000 ![] bcast_S_S500000 : (⟨S_, .i32⟩ : BufTy).Contents (Elt F) → (⟨S500000, .i32⟩ : BufTy).Contents (Elt F)),
    binary main_arg2 main_v1 main_v2 (cmpi .slt : (⟨S500000, .i32⟩ : BufTy).Contents (Elt F) → (⟨S500000, .i32⟩ : BufTy).Contents (Elt F) → (⟨S500000, .i1⟩ : BufTy).Contents (Elt F)),
    nullary main_c_0 (constantI S_ 32 50000#32),
    unary main_c_0 main_v3 (broadcastInDim S500000 ![] bcast_S_S500000 : (⟨S_, .i32⟩ : BufTy).Contents (Elt F) → (⟨S500000, .i32⟩ : BufTy).Contents (Elt F)),
    binary main_arg2 main_v3 main_v4 (addi : (⟨S500000, .i32⟩ : BufTy).Contents (Elt F) → (⟨S500000, .i32⟩ : BufTy).Contents (Elt F) → (⟨S500000, .i32⟩ : BufTy).Contents (Elt F)),
    ternary main_v2 main_v4 main_arg2 main_v5 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v5 main_v6 (broadcastInDim S500000x1 ![0] bcast_S500000_S500000x1_0 : (⟨S500000, .i32⟩ : BufTy).Contents (Elt F) → (⟨S500000x1, .i32⟩ : BufTy).Contents (Elt F)),
    binary main_arg0 main_v6 main_v7 ((fun x i => Host.gather gather_S50000x512_S500000x1_S500000x512_1_0_n_n_0_1_1512 x i) : (⟨S50000x512, .f32⟩ : BufTy).Contents (Elt F) → (⟨S500000x1, .i32⟩ : BufTy).Contents (Elt F) → (⟨S500000x512, .f32⟩ : BufTy).Contents (Elt F)),
    unary main_v0 main_v8 (broadcastInDim S500000x512 ![0, 1] bcast_S500000x1_S500000x512_0_1 : (⟨S500000x1, .f32⟩ : BufTy).Contents (Elt F) → (⟨S500000x512, .f32⟩ : BufTy).Contents (Elt F)),
    binary main_v8 main_v7 main_v9 (mulf : (⟨S500000x512, .f32⟩ : BufTy).Contents (Elt F) → (⟨S500000x512, .f32⟩ : BufTy).Contents (Elt F) → (⟨S500000x512, .f32⟩ : BufTy).Contents (Elt F)),
    nullary main_cst (constant S_ .f32 0x00000000#32),
    unary main_cst main_v10 (broadcastInDim S25000x512 ![] bcast_S_S25000x512 : (⟨S_, .f32⟩ : BufTy).Contents (Elt F) → (⟨S25000x512, .f32⟩ : BufTy).Contents (Elt F)),
    unary main_arg1 main_v11 (broadcastInDim S500000x1 ![0] bcast_S500000_S500000x1_0 : (⟨S500000, .i32⟩ : BufTy).Contents (Elt F) → (⟨S500000x1, .i32⟩ : BufTy).Contents (Elt F)),
    ternary main_v10 main_v11 main_v9 main_v12 ((fun x i u => Host.scatterAdd scatter_S25000x512_S500000x1_S500000x512_1_0_0_1 x i u) : (⟨S25000x512, .f32⟩ : BufTy).Contents (Elt F) → (⟨S500000x1, .i32⟩ : BufTy).Contents (Elt F) → (⟨S500000x512, .f32⟩ : BufTy).Contents (Elt F) → (⟨S25000x512, .f32⟩ : BufTy).Contents (Elt F)),
    binary main_v12 main_arg6 main_v13 ((fun l r => Host.dotGeneral dot_S25000x512_S512x512_S25000x512_1_0_0_1_n_n none l r) : (⟨S25000x512, .f32⟩ : BufTy).Contents (Elt F) → (⟨S512x512, .f32⟩ : BufTy).Contents (Elt F) → (⟨S25000x512, .f32⟩ : BufTy).Contents (Elt F)),
    unary main_arg7 main_v14 (broadcastInDim S1x512 ![1] bcast_S512_S1x512_1 : (⟨S512, .f32⟩ : BufTy).Contents (Elt F) → (⟨S1x512, .f32⟩ : BufTy).Contents (Elt F)),
    unary main_v14 main_v15 (broadcastInDim S25000x512 ![0, 1] bcast_S1x512_S25000x512_0_1 : (⟨S1x512, .f32⟩ : BufTy).Contents (Elt F) → (⟨S25000x512, .f32⟩ : BufTy).Contents (Elt F)),
    binary main_v13 main_v15 main_v16 (addf : (⟨S25000x512, .f32⟩ : BufTy).Contents (Elt F) → (⟨S25000x512, .f32⟩ : BufTy).Contents (Elt F) → (⟨S25000x512, .f32⟩ : BufTy).Contents (Elt F)),
    nullary main_cst_1 (constant S_ .f32 0x3F666666#32),
    unary main_cst_1 main_v17 (broadcastInDim S25000x512 ![] bcast_S_S25000x512 : (⟨S_, .f32⟩ : BufTy).Contents (Elt F) → (⟨S25000x512, .f32⟩ : BufTy).Contents (Elt F)),
    binary main_v17 main_v16 main_v18 (mulf : (⟨S25000x512, .f32⟩ : BufTy).Contents (Elt F) → (⟨S25000x512, .f32⟩ : BufTy).Contents (Elt F) → (⟨S25000x512, .f32⟩ : BufTy).Contents (Elt F)),
    nullary main_c_2 (constantI S_ 32 0#32),
    unary main_c_2 main_v19 (broadcastInDim S25000 ![] bcast_S_S25000 : (⟨S_, .i32⟩ : BufTy).Contents (Elt F) → (⟨S25000, .i32⟩ : BufTy).Contents (Elt F)),
    binary main_arg4 main_v19 main_v20 (cmpi .slt : (⟨S25000, .i32⟩ : BufTy).Contents (Elt F) → (⟨S25000, .i32⟩ : BufTy).Contents (Elt F) → (⟨S25000, .i1⟩ : BufTy).Contents (Elt F)),
    nullary main_c_3 (constantI S_ 32 100000#32),
    unary main_c_3 main_v21 (broadcastInDim S25000 ![] bcast_S_S25000 : (⟨S_, .i32⟩ : BufTy).Contents (Elt F) → (⟨S25000, .i32⟩ : BufTy).Contents (Elt F)),
    binary main_arg4 main_v21 main_v22 (addi : (⟨S25000, .i32⟩ : BufTy).Contents (Elt F) → (⟨S25000, .i32⟩ : BufTy).Contents (Elt F) → (⟨S25000, .i32⟩ : BufTy).Contents (Elt F)),
    ternary main_v20 main_v22 main_arg4 main_v23 (select : (⟨S25000, .i1⟩ : BufTy).Contents (Elt F) → (⟨S25000, .i32⟩ : BufTy).Contents (Elt F) → (⟨S25000, .i32⟩ : BufTy).Contents (Elt F) → (⟨S25000, .i32⟩ : BufTy).Contents (Elt F)),
    unary main_v23 main_v24 (broadcastInDim S25000x1 ![0] bcast_S25000_S25000x1_0 : (⟨S25000, .i32⟩ : BufTy).Contents (Elt F) → (⟨S25000x1, .i32⟩ : BufTy).Contents (Elt F)),
    binary main_arg5 main_v24 main_v25 ((fun x i => Host.gather gather_S100000x512_S25000x1_S25000x512_1_0_n_n_0_1_1512 x i) : (⟨S100000x512, .f32⟩ : BufTy).Contents (Elt F) → (⟨S25000x1, .i32⟩ : BufTy).Contents (Elt F) → (⟨S25000x512, .f32⟩ : BufTy).Contents (Elt F)),
    nullary main_cst_4 (constant S_ .f32 0x3DCCCCCD#32),
    unary main_cst_4 main_v26 (broadcastInDim S25000x512 ![] bcast_S_S25000x512 : (⟨S_, .f32⟩ : BufTy).Contents (Elt F) → (⟨S25000x512, .f32⟩ : BufTy).Contents (Elt F)),
    binary main_v26 main_v25 main_v27 (mulf : (⟨S25000x512, .f32⟩ : BufTy).Contents (Elt F) → (⟨S25000x512, .f32⟩ : BufTy).Contents (Elt F) → (⟨S25000x512, .f32⟩ : BufTy).Contents (Elt F)),
    binary main_v18 main_v27 main_v28 (addf : (⟨S25000x512, .f32⟩ : BufTy).Contents (Elt F) → (⟨S25000x512, .f32⟩ : BufTy).Contents (Elt F) → (⟨S25000x512, .f32⟩ : BufTy).Contents (Elt F)),
    TRef.nullary main_call0.cst (constant S_ .f32 0x00000000#32),
    TRef.unary main_call0.cst main_call0.v0 (broadcastInDim S25000x512 ![] bcast_S_S25000x512),
    TRef.binary (.of main_v28 : TRef sig ⟨S25000x512, .f32⟩) main_call0.v0 main_call0.v1 (cmpf .ogt),
    TRef.nullary main_call0.cst_0 (constant S_ .f32 0x00000000#32),
    TRef.unary main_call0.cst_0 main_call0.v2 (broadcastInDim S25000x512 ![] bcast_S_S25000x512),
    TRef.binary (.of main_v28 : TRef sig ⟨S25000x512, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S25000x512 ![] bcast_S_S25000x512),
    TRef.ternary main_call0.v3 main_call0.call0.v1 (.of main_v28 : TRef sig ⟨S25000x512, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S25000x512 ![] bcast_S_S25000x512),
    TRef.binary main_call0.v6 main_call0.v5 main_call0.v7 mulf,
    TRef.ternary main_call0.v1 (.of main_v28 : TRef sig ⟨S25000x512, .f32⟩) main_call0.v7 main_call0.call1.v0 select,
    nullary main_cst_5 (constant S_ .f32 0x00000000#32),
    binary main_v29 main_cst_5 main_v30 ((fun x v => Host.reduceAdd x v reducesTo_S25000x512_S25000_d1 h_S_) : (⟨S25000x512, .f32⟩ : BufTy).Contents (Elt F) → (⟨S_, .f32⟩ : BufTy).Contents (Elt F) → (⟨S25000, .f32⟩ : BufTy).Contents (Elt F)),
    unary main_v30 main_v31 (broadcastInDim S25000x1 ![0] bcast_S25000_S25000x1_0 : (⟨S25000, .f32⟩ : BufTy).Contents (Elt F) → (⟨S25000x1, .f32⟩ : BufTy).Contents (Elt F)),
    nullary main_cst_6 (constant S_ .f32 0x44000000#32),
    unary main_cst_6 main_v32 (broadcastInDim S25000x1 ![] bcast_S_S25000x1 : (⟨S_, .f32⟩ : BufTy).Contents (Elt F) → (⟨S25000x1, .f32⟩ : BufTy).Contents (Elt F)),
    binary main_v31 main_v32 main_v33 (Host.divf : (⟨S25000x1, .f32⟩ : BufTy).Contents (Elt F) → (⟨S25000x1, .f32⟩ : BufTy).Contents (Elt F) → (⟨S25000x1, .f32⟩ : BufTy).Contents (Elt F)),
    nullary main_c_7 (constantI S_ 32 0#32),
    TRef.nullary main_call1.cst (constant S_ .f32 0x00000000#32),
    TRef.binary (.of main_v29 : TRef sig ⟨S25000x512, .f32⟩) main_call1.cst main_call1.v0 (fun x v => Host.reduceAdd x v reducesTo_S25000x512_S25000_d1 h_S_),
    TRef.unary main_call1.v0 main_call1.v1 (broadcastInDim S25000x1 ![0] bcast_S25000_S25000x1_0),
    TRef.nullary main_call1.cst_0 (constant S_ .f32 0x44000000#32),
    TRef.unary main_call1.cst_0 main_call1.v2 (broadcastInDim S25000x1 ![] bcast_S_S25000x1),
    TRef.binary main_call1.v1 main_call1.v2 main_call1.v3 Host.divf,
    TRef.unary main_call1.v3 main_call1.v4 (broadcastInDim S25000x512 ![0, 1] bcast_S25000x1_S25000x512_0_1),
    TRef.binary (.of main_v29 : TRef sig ⟨S25000x512, .f32⟩) main_call1.v4 main_call1.v5 subf,
    TRef.binary main_call1.v5 main_call1.v5 main_call1.v6 mulf,
    TRef.unary (.of main_c_7 : TRef sig ⟨S_, .i32⟩) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S25000x512_S25000_d1 h_S_),
    TRef.unary main_call1.v9 main_call1.v10 (broadcastInDim S25000x1 ![0] bcast_S25000_S25000x1_0),
    TRef.unary main_call1.v8 main_call1.v11 (broadcastInDim S25000x1 ![] bcast_S_S25000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S25000x1 ![] bcast_S_S25000x1),
    TRef.ternary main_call1.v13 main_call1.v12 main_call1.call0.v1 main_call1.call0.v2 (fun p a b => select (broadcastInDim S25000x1 ![] bcast_S_S25000x1 p) a b),
    nullary main_cst_8 (constant S_ .f32 0x3089705F#32),
    unary main_cst_8 main_v35 (broadcastInDim S25000x1 ![] bcast_S_S25000x1 : (⟨S_, .f32⟩ : BufTy).Contents (Elt F) → (⟨S25000x1, .f32⟩ : BufTy).Contents (Elt F)),
    binary main_v34 main_v35 main_v36 (addf : (⟨S25000x1, .f32⟩ : BufTy).Contents (Elt F) → (⟨S25000x1, .f32⟩ : BufTy).Contents (Elt F) → (⟨S25000x1, .f32⟩ : BufTy).Contents (Elt F)),
    unary main_v33 main_v37 (broadcastInDim S25000x512 ![0, 1] bcast_S25000x1_S25000x512_0_1 : (⟨S25000x1, .f32⟩ : BufTy).Contents (Elt F) → (⟨S25000x512, .f32⟩ : BufTy).Contents (Elt F)),
    binary main_v29 main_v37 main_v38 (subf : (⟨S25000x512, .f32⟩ : BufTy).Contents (Elt F) → (⟨S25000x512, .f32⟩ : BufTy).Contents (Elt F) → (⟨S25000x512, .f32⟩ : BufTy).Contents (Elt F)),
    unary main_arg8 main_v39 (broadcastInDim S1x512 ![1] bcast_S512_S1x512_1 : (⟨S512, .f32⟩ : BufTy).Contents (Elt F) → (⟨S1x512, .f32⟩ : BufTy).Contents (Elt F)),
    unary main_v39 main_v40 (broadcastInDim S25000x512 ![0, 1] bcast_S1x512_S25000x512_0_1 : (⟨S1x512, .f32⟩ : BufTy).Contents (Elt F) → (⟨S25000x512, .f32⟩ : BufTy).Contents (Elt F)),
    binary main_v38 main_v40 main_v41 (mulf : (⟨S25000x512, .f32⟩ : BufTy).Contents (Elt F) → (⟨S25000x512, .f32⟩ : BufTy).Contents (Elt F) → (⟨S25000x512, .f32⟩ : BufTy).Contents (Elt F)),
    unary main_v36 main_v42 (Host.rsqrt : (⟨S25000x1, .f32⟩ : BufTy).Contents (Elt F) → (⟨S25000x1, .f32⟩ : BufTy).Contents (Elt F)),
    unary main_v42 main_v43 (broadcastInDim S25000x512 ![0, 1] bcast_S25000x1_S25000x512_0_1 : (⟨S25000x1, .f32⟩ : BufTy).Contents (Elt F) → (⟨S25000x512, .f32⟩ : BufTy).Contents (Elt F)),
    binary main_v41 main_v43 main_v44 (mulf : (⟨S25000x512, .f32⟩ : BufTy).Contents (Elt F) → (⟨S25000x512, .f32⟩ : BufTy).Contents (Elt F) → (⟨S25000x512, .f32⟩ : BufTy).Contents (Elt F)),
    unary main_arg9 main_v45 (broadcastInDim S1x512 ![1] bcast_S512_S1x512_1 : (⟨S512, .f32⟩ : BufTy).Contents (Elt F) → (⟨S1x512, .f32⟩ : BufTy).Contents (Elt F)),
    unary main_v45 main_v46 (broadcastInDim S25000x512 ![0, 1] bcast_S1x512_S25000x512_0_1 : (⟨S1x512, .f32⟩ : BufTy).Contents (Elt F) → (⟨S25000x512, .f32⟩ : BufTy).Contents (Elt F)),
    binary main_v44 main_v46 main_v47 (addf : (⟨S25000x512, .f32⟩ : BufTy).Contents (Elt F) → (⟨S25000x512, .f32⟩ : BufTy).Contents (Elt F) → (⟨S25000x512, .f32⟩ : BufTy).Contents (Elt F)) ]

-- a chain of 95 steps: re-associating it recurses once per step
set_option maxRecDepth 4096 in
set_option maxHeartbeats 1600000 in
/-- @main is that straight line: the functions' definitions unfolded at their calls and the records at their
    fields, both sides are one chain of steps once sequencing is reassociated. -/
theorem main_eq (c : Dev nD) : main (F := F) c = seq ops := by
  simp only [main, fn_elu.body, fn_where.body, fn_where_0.body, fn_var.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., nullary_bufs_sub .., unary_bufs_sub .., binary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub ..⟩

end Cert.ReferenceIdeal.HandRun

end
-- ==== Proof.RefRun.lean ====
/- The reference's @main read as one straight line of host operations. Here: what the result buffer holds after that line, as a composition of whole-array functions of the arguments' contents, and the statement that every run ends there with the arguments unchanged. -/
import proofs.«132914_j5334349382168_2_alg».proof.Proof.Gen.ReferenceIdeal
import Idealize.ShloMosaic.Lib.StableHlo.Run
import proofs.«132914_j5334349382168_2_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## What the reference computes, as whole-array functions of the arguments' contents -/

/-- the segment sum: rows of x picked by the column index, scaled by the edge value, added into the row the row index names -/
def agg (x : (⟨S50000x512, .f32⟩ : BufTy).Contents (Elt F)) (rows cols : (⟨S500000, .i32⟩ : BufTy).Contents (Elt F))
    (vals : (⟨S500000, .f32⟩ : BufTy).Contents (Elt F)) : (⟨S25000x512, .f32⟩ : BufTy).Contents (Elt F) :=
  Host.scatterAdd scatter_S25000x512_S500000x1_S500000x512_1_0_0_1
    (broadcastInDim S25000x512 ![] bcast_S_S25000x512 (constant S_ .f32 0x00000000#32))
    (broadcastInDim S500000x1 ![0] bcast_S500000_S500000x1_0 rows)
    (mulf
      (broadcastInDim S500000x512 ![0, 1] bcast_S500000x1_S500000x512_0_1
        (broadcastInDim S500000x1 ![0] bcast_S500000_S500000x1_0 vals))
      (Host.gather gather_S50000x512_S500000x1_S500000x512_1_0_n_n_0_1_1512 x
        (broadcastInDim S500000x1 ![0] bcast_S500000_S500000x1_0
          (select (cmpi .slt cols (broadcastInDim S500000 ![] bcast_S_S500000 (constantI S_ 32 0#32)))
            (addi cols (broadcastInDim S500000 ![] bcast_S_S500000 (constantI S_ 32 50000#32))) cols))))

/-- the rows of the buffer the sampled nodes name -/
def ysel (ybuf : (⟨S100000x512, .f32⟩ : BufTy).Contents (Elt F)) (nodes : (⟨S25000, .i32⟩ : BufTy).Contents (Elt F)) :
    (⟨S25000x512, .f32⟩ : BufTy).Contents (Elt F) :=
  Host.gather gather_S100000x512_S25000x1_S25000x512_1_0_n_n_0_1_1512 ybuf
    (broadcastInDim S25000x1 ![0] bcast_S25000_S25000x1_0
      (select (cmpi .slt nodes (broadcastInDim S25000 ![] bcast_S_S25000 (constantI S_ 32 0#32)))
        (addi nodes (broadcastInDim S25000 ![] bcast_S_S25000 (constantI S_ 32 100000#32))) nodes))

/-- the blend before the nonlinearity: nine tenths of the affine image `A · W + b` (the bias along each row) plus
    one tenth of `Y` -/
def lin (A Y : (⟨S25000x512, .f32⟩ : BufTy).Contents (Elt F)) (W : (⟨S512x512, .f32⟩ : BufTy).Contents (Elt F))
    (b : (⟨S512, .f32⟩ : BufTy).Contents (Elt F)) : (⟨S25000x512, .f32⟩ : BufTy).Contents (Elt F) :=
  addf
    (mulf (broadcastInDim S25000x512 ![] bcast_S_S25000x512 (constant S_ .f32 0x3F666666#32))
      (addf (Host.dotGeneral dot_S25000x512_S512x512_S25000x512_1_0_0_1_n_n none A W)
        (broadcastInDim S25000x512 ![0, 1] bcast_S1x512_S25000x512_0_1 (broadcastInDim S1x512 ![1] bcast_S512_S1x512_1 b))))
    (mulf (broadcastInDim S25000x512 ![] bcast_S_S25000x512 (constant S_ .f32 0x3DCCCCCD#32)) Y)

/-- the exponential-linear unit, elementwise: `x` where `x > 0`, elsewhere `1 · (exp t - 1)` at `t` the value `x`
    with the positive entries replaced by zero -/
def elu (x : (⟨S25000x512, .f32⟩ : BufTy).Contents (Elt F)) : (⟨S25000x512, .f32⟩ : BufTy).Contents (Elt F) :=
  select (cmpf .ogt x (broadcastInDim S25000x512 ![] bcast_S_S25000x512 (constant S_ .f32 0x00000000#32))) x
    (mulf (broadcastInDim S25000x512 ![] bcast_S_S25000x512 (constant S_ .f32 0x3F800000#32))
      (Host.expm1
        (select (cmpf .ogt x (broadcastInDim S25000x512 ![] bcast_S_S25000x512 (constant S_ .f32 0x00000000#32)))
          (broadcastInDim S25000x512 ![] bcast_S_S25000x512 (id (constant S_ .f32 0x00000000#32))) x)))

/-- the mean of each row, as a column: the row's sum over 512 -/
def rowMean (e : (⟨S25000x512, .f32⟩ : BufTy).Contents (Elt F)) : (⟨S25000x1, .f32⟩ : BufTy).Contents (Elt F) :=
  Host.divf
    (broadcastInDim S25000x1 ![0] bcast_S25000_S25000x1_0
      (Host.reduceAdd e (constant S_ .f32 0x00000000#32) reducesTo_S25000x512_S25000_d1 h_S_))
    (broadcastInDim S25000x1 ![] bcast_S_S25000x1 (constant S_ .f32 0x44000000#32))

/-- each entry less its row's mean -/
def centred (e : (⟨S25000x512, .f32⟩ : BufTy).Contents (Elt F)) : (⟨S25000x512, .f32⟩ : BufTy).Contents (Elt F) :=
  subf e (broadcastInDim S25000x512 ![0, 1] bcast_S25000x1_S25000x512_0_1 (rowMean e))

/-- the divisor of the variance: `512` less the correction, which is the integer zero converted -/
def dof : (⟨S_, .f32⟩ : BufTy).Contents (Elt F) :=
  subf (constant S_ .f32 0x44000000#32) (sitofp .f32 (constantI S_ 32 0#32))

/-- the variance of each row, as a column: the sum of the squared centred entries over the divisor, guarded by
    a not-a-number where the divisor is not positive -/
def rowVar (e : (⟨S25000x512, .f32⟩ : BufTy).Contents (Elt F)) : (⟨S25000x1, .f32⟩ : BufTy).Contents (Elt F) :=
  select (broadcastInDim S25000x1 ![] bcast_S_S25000x1 (cmpf .ogt (dof (F := F)) (constant S_ .f32 0x00000000#32)))
    (Host.divf
      (broadcastInDim S25000x1 ![0] bcast_S25000_S25000x1_0
        (Host.reduceAdd (mulf (centred e) (centred e)) (constant S_ .f32 0x00000000#32) reducesTo_S25000x512_S25000_d1 h_S_))
      (broadcastInDim S25000x1 ![] bcast_S_S25000x1 (dof (F := F))))
    (broadcastInDim S25000x1 ![] bcast_S_S25000x1 (id (constant S_ .f32 0x7FC00000#32)))

/-- the row normalisation: each centred entry times the scale of its column, times the reciprocal root of its
    row's variance plus a small constant, plus the offset of its column -/
def norm (e : (⟨S25000x512, .f32⟩ : BufTy).Contents (Elt F)) (scale offset : (⟨S512, .f32⟩ : BufTy).Contents (Elt F)) :
    (⟨S25000x512, .f32⟩ : BufTy).Contents (Elt F) :=
  addf
    (mulf
      (mulf (subf e (broadcastInDim S25000x512 ![0, 1] bcast_S25000x1_S25000x512_0_1 (rowMean e)))
        (broadcastInDim S25000x512 ![0, 1] bcast_S1x512_S25000x512_0_1 (broadcastInDim S1x512 ![1] bcast_S512_S1x512_1 scale)))
      (broadcastInDim S25000x512 ![0, 1] bcast_S25000x1_S25000x512_0_1
        (Host.rsqrt (addf (rowVar e) (broadcastInDim S25000x1 ![] bcast_S_S25000x1 (constant S_ .f32 0x3089705F#32))))))
    (broadcastInDim S25000x512 ![0, 1] bcast_S1x512_S25000x512_0_1 (broadcastInDim S1x512 ![1] bcast_S512_S1x512_1 offset))

/-- everything after the two irregular stages, as one whole-array function -/
def tail (A Y : (⟨S25000x512, .f32⟩ : BufTy).Contents (Elt F)) (W : (⟨S512x512, .f32⟩ : BufTy).Contents (Elt F))
    (b scale offset : (⟨S512, .f32⟩ : BufTy).Contents (Elt F)) : (⟨S25000x512, .f32⟩ : BufTy).Contents (Elt F) :=
  norm (elu (lin A Y W b)) scale offset

/-! ## The fold of the operations at the result and at the arguments -/

set_option maxRecDepth 8192 in
set_option maxHeartbeats 4000000 in
/-- The result buffer after the line is `tail` of the two irregular stages and the dense arguments: each
    operation's result at its own buffer is its function of its operands' contents, at any other buffer what was
    there; what is left is the composed term, equal to `tail …` by unfolding the definitions. -/
theorem out_eq (V : Valuation τ sig (Elt F)) :
    after ops V (main_v47 : DevRef τ sig)
      = tail (agg (V (main_arg0 : DevRef τ sig)) (V (main_arg1 : DevRef τ sig)) (V (main_arg2 : DevRef τ sig)) (V (main_arg3 : DevRef τ sig)))
          (ysel (V (main_arg5 : DevRef τ sig)) (V (main_arg4 : DevRef τ sig)))
          (V (main_arg6 : DevRef τ sig)) (V (main_arg7 : DevRef τ sig)) (V (main_arg8 : DevRef τ sig)) (V (main_arg9 : DevRef τ sig)) := by
  after_results_simp
  rfl

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-! ## The run -/

/-- On the device, for any float values, from any memory with zero counters: every weakly fair execution of
    @main terminates with the result at `tail` of the segment sum, the selected rows and the dense arguments, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = tail (agg (m ((c.tc : Thread nD τ).loc main_arg0)) (m ((c.tc : Thread nD τ).loc main_arg1)) (m ((c.tc : Thread nD τ).loc main_arg2)) (m ((c.tc : Thread nD τ).loc main_arg3)))
              (ysel (m ((c.tc : Thread nD τ).loc main_arg5)) (m ((c.tc : Thread nD τ).loc main_arg4)))
              (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v47).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.HandRun

end
-- ==== Proof.RefVal.lean ====
/-
  The reference's whole-array tail, read at an index on the extended reals.

  Entry (r, j) of `tail A Y W b scale offset` is the row function of the specification applied to row r of A,
  row r of Y, the matrix W and the three parameter rows. The proof goes along the definitions: the blend of the
  affine image with the second operand, the exponential-linear unit, the row mean, the centring, the row
  variance, the normalisation; each is read at an index, a broadcast as the entry it repeats, a row sum as
  the sum over the row's columns, the matrix product as the sum over the shared index. Four places differ
  from the specification by a law of the extended reals: a sum that starts from the constant zero; the unit
  written as a product by one of an exponential less one of a value already zeroed where positive; a divisor
  written `512 - 0` with a guard that it is positive; and the row mean written twice.
-/
import proofs.«132914_j5334349382168_2_alg».proof.Proof.RefRun
import proofs.«132914_j5334349382168_2_alg».proof.Proof.Spec
import proofs.«132914_j5334349382168_2_alg».proof.Proof.LibRowLayout
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Cert Cert.ReferenceIdeal Cert.ReferenceIdeal.Gen Idealize.ShloMosaic Idealize.ShloMosaic.ValueIdx Cert.LibRowLayout

variable {α : Type}

/-! ## Two constants -/

/-- The pattern of `1.0` denotes `1`. -/
theorem ofBits_one : Ideal.ofBits .f32 0x3F800000#32 = 1 := by
  simp [Ideal.ofBits, Ideal.ieee, -EReal.coe_mul]; norm_num

/-- The pattern of `512.0` denotes the real `512`. -/
theorem ofBits_512 : Ideal.ofBits .f32 0x44000000#32 = ((512 : ℝ) : EReal) := by
  simp [Ideal.ofBits, Ideal.ieee, -EReal.coe_mul]; norm_num

/-! ## The broadcasts at an index -/

/-- A `[512]` vector laid along every row of `[25000, 512]` (through `[1, 512]`) reads, at `(r, j)`, its entry `j`. -/
theorem rowBc_apply (v : S512.Idx → α) (h1 : S512.BroadcastsInDim S1x512 ![1]) (h2 : S1x512.BroadcastsInDim S25000x512 ![0, 1])
    (r : Fin 25000) (j : Fin 512) :
    broadcastInDim S25000x512 ![0, 1] h2 (broadcastInDim S1x512 ![1] h1 v) (ix2 r j) = v (ix1 j) := by
  refine (broadcastInDim_apply ![0, 1] h2 _ (ix2 r j) (ix2 (0 : Fin 1) j) fun a => ?_).trans ?_
  · match a with
    | ⟨0, _⟩ => rfl
    | ⟨1, _⟩ => rfl
  · refine broadcastInDim_apply ![1] h1 v (ix2 (0 : Fin 1) j) (ix1 j) fun a => ?_
    match a with
    | ⟨0, _⟩ => rfl

/-- A `[25000, 1]` column laid along every column of `[25000, 512]` reads, at `(r, j)`, the column at row `r`. -/
theorem colBc_apply (c : S25000x1.Idx → α) (h : S25000x1.BroadcastsInDim S25000x512 ![0, 1]) (r : Fin 25000) (j : Fin 512) :
    broadcastInDim S25000x512 ![0, 1] h c (ix2 r j) = c (ix2 r (0 : Fin 1)) := by
  refine broadcastInDim_apply ![0, 1] h c (ix2 r j) (ix2 r (0 : Fin 1)) fun a => ?_
  match a with
  | ⟨0, _⟩ => rfl
  | ⟨1, _⟩ => rfl

/-- A `[25000]` vector as a `[25000, 1]` column reads, at `(r, u)`, the vector at `r`. -/
theorem vecCol_apply (v : S25000.Idx → α) (h : S25000.BroadcastsInDim S25000x1 ![0]) (r : Fin 25000) (u : Fin 1) :
    broadcastInDim S25000x1 ![0] h v (ix2 r u) = v (ix1 r) := by
  refine broadcastInDim_apply ![0] h v (ix2 r u) (ix1 r) fun a => ?_
  match a with
  | ⟨0, _⟩ => rfl

/-! ## The matrix product at an index -/

/-- The product's dimension numbers: rows × shared index times shared index × columns. -/
abbrev DD : DotDims S25000x512 S512x512 S25000x512 := dot_S25000x512_S512x512_S25000x512_1_0_0_1_n_n

theorem lhs0 (i : S25000x512.Idx) (q : DD.contr.Idx) : (DD.lhsIdx i q 0).val = (i 0).val := by
  unfold DotDims.lhsIdx
  rw [dif_neg (show ¬(0 : Fin S25000x512.rank) ∈ DD.lhsBatch by decide), dif_pos (show (0 : Fin S25000x512.rank) ∈ DD.lhsNonContracting by decide)]
  rfl
theorem lhs1 (i : S25000x512.Idx) (q : DD.contr.Idx) : (DD.lhsIdx i q 1).val = (q ⟨0, by decide⟩).val :=
  DD.lhsIdx_val_of_single rfl i q
theorem rhs0 (i : S25000x512.Idx) (q : DD.contr.Idx) : (DD.rhsIdx i q 0).val = (q ⟨0, by decide⟩).val :=
  DD.rhsIdx_val_of_single rfl i q
theorem rhs1 (i : S25000x512.Idx) (q : DD.contr.Idx) : (DD.rhsIdx i q 1).val = (i 1).val := by
  unfold DotDims.rhsIdx
  rw [dif_neg (show ¬(1 : Fin S512x512.rank) ∈ DD.rhsBatch by decide), dif_pos (show (1 : Fin S512x512.rank) ∈ DD.rhsNonContracting by decide)]
  rfl

/-- Entry (r, j) of the product is the sum over k of A(r, k) · B(k, j). -/
theorem dot_row (A : FVec Ideal S25000x512 .f32) (B : FVec Ideal S512x512 .f32) (r : Fin 25000) (j : Fin 512) :
    Host.dotGeneral DD none A B (ix2 r j) = ∑ k : Fin 512, A (ix2 r k) * B (ix2 k j) := by
  simp only [Host.dotGeneral]
  rw [Ideal.dotGeneral_apply, ← Equiv.sum_comp (contrEquiv1 DD 512 rfl rfl).symm]
  refine Finset.sum_congr rfl fun k _ => ?_
  have hk := contrEquiv1_symm_val DD 512 rfl rfl k
  have el : DD.lhsIdx (ix2 r j) ((contrEquiv1 DD 512 rfl rfl).symm k) = ix2 r k := funext fun a => Fin.ext (by
    match a with
    | ⟨0, _⟩ => exact lhs0 _ _
    | ⟨1, _⟩ => exact (lhs1 _ _).trans hk)
  have er : DD.rhsIdx (ix2 r j) ((contrEquiv1 DD 512 rfl rfl).symm k) = ix2 k j := funext fun a => Fin.ext (by
    match a with
    | ⟨0, _⟩ => exact (rhs0 _ _).trans hk
    | ⟨1, _⟩ => exact rhs1 _ _)
  rw [el, er]

/-! ## Each piece at an index -/

/-- The blend at (r, j). -/
theorem lin_apply (A Y : FVec Ideal S25000x512 .f32) (W : FVec Ideal S512x512 .f32) (b : FVec Ideal S512 .f32) (r : Fin 25000) (j : Fin 512) :
    HandRun.lin (F := Ideal) A Y W b (ix2 r j)
      = RowSpec.feat (fun k => A (ix2 r k)) (fun k => Y (ix2 r k)) (fun k n => W (ix2 k n)) (fun n => b (ix1 n)) j := by
  unfold HandRun.lin
  show Ideal.ofBits .f32 0x3F666666#32
        * (Host.dotGeneral DD none A W (ix2 r j)
            + broadcastInDim S25000x512 ![0, 1] bcast_S1x512_S25000x512_0_1 (broadcastInDim S1x512 ![1] bcast_S512_S1x512_1 b) (ix2 r j))
      + Ideal.ofBits .f32 0x3DCCCCCD#32 * Y (ix2 r j) = _
  rw [dot_row, rowBc_apply]
  rfl

/-- The unit at an entry: where the entry is positive both sides are the entry; elsewhere the inner choice keeps the
    entry and the product by one drops. -/
theorem elu_apply (x : FVec Ideal S25000x512 .f32) (i : S25000x512.Idx) : HandRun.elu (F := Ideal) x i = RowSpec.elu (x i) := by
  unfold HandRun.elu RowSpec.elu RowSpec.cZero RowSpec.cOne
  show Scalar.select (Ideal.cmp .ogt (x i) (Ideal.ofBits .f32 0x00000000#32)) (x i)
        (Ideal.ofBits .f32 0x3F800000#32
          * (Ideal.exp (Scalar.select (Ideal.cmp .ogt (x i) (Ideal.ofBits .f32 0x00000000#32)) (Ideal.ofBits .f32 0x00000000#32) (x i)) - 1)) = _
  rcases BitVec.eq_zero_or_eq_one (Ideal.cmp .ogt (x i) (Ideal.ofBits .f32 0x00000000#32)) with h | h
  · rw [h, select_zero, select_zero, select_zero, ofBits_one, one_mul]
  · rw [h, select_one, select_one]

/-- The shape relation of a sum along the rows, as the witness that names the visited indices. -/
theorem reduces_row : S25000x512.Reduces [1] S25000 := by decide

/-- A sum along the rows started from the constant zero, read at row r: the sum of the row. -/
theorem rowSum_apply (e : FVec Ideal S25000x512 .f32) (r : Fin 25000) :
    Host.reduceAdd e (constant S_ .f32 0x00000000#32) reducesTo_S25000x512_S25000_d1 h_S_ (ix1 r) = ∑ k : Fin 512, e (ix2 r k) := by
  show Ideal.hostReduceAdd reducesTo_S25000x512_S25000_d1 e (Ideal.ofBits .f32 0x00000000#32) (ix1 r) = _
  rw [Ideal.hostReduceAdd_single reducesTo_S25000x512_S25000_d1 reduces_row e _ (ix1 r), Ideal.ofBits_zero_f32, zero_add]
  exact Finset.sum_congr rfl fun k _ => congrArg e (lift_row reduces_row r k)

/-- The row mean at row r. -/
theorem rowMean_apply (e : FVec Ideal S25000x512 .f32) (r : Fin 25000) :
    HandRun.rowMean (F := Ideal) e (ix2 r (0 : Fin 1)) = RowSpec.mean (fun k => e (ix2 r k)) := by
  unfold HandRun.rowMean RowSpec.mean RowSpec.c512
  show Ideal.div (broadcastInDim S25000x1 ![0] bcast_S25000_S25000x1_0
      (Host.reduceAdd e (constant S_ .f32 0x00000000#32) reducesTo_S25000x512_S25000_d1 h_S_) (ix2 r (0 : Fin 1))) (Ideal.ofBits .f32 0x44000000#32) = _
  rw [vecCol_apply, rowSum_apply]

/-- A centred entry at (r, j): the entry less the mean of row r. -/
theorem centred_apply (e : FVec Ideal S25000x512 .f32) (r : Fin 25000) (j : Fin 512) :
    HandRun.centred (F := Ideal) e (ix2 r j) = RowSpec.dev (fun k => e (ix2 r k)) j := by
  unfold HandRun.centred RowSpec.dev
  show e (ix2 r j) - broadcastInDim S25000x512 ![0, 1] bcast_S25000x1_S25000x512_0_1 (HandRun.rowMean (F := Ideal) e) (ix2 r j) = _
  rw [colBc_apply, rowMean_apply]

/-- The divisor `512 - 0` is `512`: the converted integer zero is the real zero. -/
theorem dof_apply (i : S_.Idx) : HandRun.dof (F := Ideal) i = RowSpec.c512 := by
  unfold HandRun.dof RowSpec.c512
  show Ideal.ofBits .f32 0x44000000#32 - (((0#32 : BitVec 32).toInt : ℝ) : EReal) = _
  have h0 : (0#32 : BitVec 32).toInt = 0 := by decide
  rw [h0, Int.cast_zero, EReal.coe_zero, sub_zero]

/-- The guard: `512` is greater than zero. -/
theorem guard_one : Ideal.cmp .ogt RowSpec.c512 (Ideal.ofBits .f32 0x00000000#32) = 1#1 := by
  unfold RowSpec.c512
  rw [ofBits_512, Ideal.ofBits_zero_f32]
  unfold Ideal.cmp
  have h : (0 : EReal) < ((512 : ℝ) : EReal) := by exact_mod_cast (by norm_num : (0 : ℝ) < 512)
  simp [h]

/-- The row variance at row r: the guard holds, so it is the sum of the squared deviations over `512`. -/
theorem rowVar_apply (e : FVec Ideal S25000x512 .f32) (r : Fin 25000) :
    HandRun.rowVar (F := Ideal) e (ix2 r (0 : Fin 1))
      = Ideal.div (∑ j : Fin 512, RowSpec.dev (fun k => e (ix2 r k)) j * RowSpec.dev (fun k => e (ix2 r k)) j) RowSpec.c512 := by
  unfold HandRun.rowVar
  show Scalar.select (Ideal.cmp .ogt (HandRun.dof (F := Ideal) _) (Ideal.ofBits .f32 0x00000000#32))
      (Ideal.div (broadcastInDim S25000x1 ![0] bcast_S25000_S25000x1_0
          (Host.reduceAdd (F := Ideal) (mulf (F := Ideal) (s := S25000x512) (φ := .f32) (HandRun.centred (F := Ideal) e) (HandRun.centred (F := Ideal) e)) (constant S_ .f32 0x00000000#32) reducesTo_S25000x512_S25000_d1 h_S_) (ix2 r (0 : Fin 1)))
        (HandRun.dof (F := Ideal) _))
      (Ideal.ofBits .f32 0x7FC00000#32) = _
  rw [dof_apply, guard_one, select_one, vecCol_apply, rowSum_apply]
  refine congrArg (fun s => Ideal.div s RowSpec.c512) (Finset.sum_congr rfl fun k _ => ?_)
  show HandRun.centred (F := Ideal) e (ix2 r k) * HandRun.centred (F := Ideal) e (ix2 r k) = _
  rw [centred_apply]

/-- The normalisation at (r, j). -/
theorem norm_apply (e : FVec Ideal S25000x512 .f32) (scale offset : FVec Ideal S512 .f32) (r : Fin 25000) (j : Fin 512) :
    HandRun.norm (F := Ideal) e scale offset (ix2 r j)
      = RowSpec.norm (fun k => e (ix2 r k)) (fun n => scale (ix1 n)) (fun n => offset (ix1 n)) j := by
  unfold HandRun.norm RowSpec.norm RowSpec.var RowSpec.cEps
  show (e (ix2 r j) - broadcastInDim S25000x512 ![0, 1] bcast_S25000x1_S25000x512_0_1 (HandRun.rowMean (F := Ideal) e) (ix2 r j))
        * broadcastInDim S25000x512 ![0, 1] bcast_S1x512_S25000x512_0_1 (broadcastInDim S1x512 ![1] bcast_S512_S1x512_1 scale) (ix2 r j)
        * broadcastInDim S25000x512 ![0, 1] bcast_S25000x1_S25000x512_0_1
            (Host.rsqrt (F := Ideal) (addf (F := Ideal) (s := S25000x1) (φ := .f32) (HandRun.rowVar (F := Ideal) e) (broadcastInDim S25000x1 ![] bcast_S_S25000x1 (constant S_ .f32 0x3089705F#32)))) (ix2 r j)
      + broadcastInDim S25000x512 ![0, 1] bcast_S1x512_S25000x512_0_1 (broadcastInDim S1x512 ![1] bcast_S512_S1x512_1 offset) (ix2 r j) = _
  rw [colBc_apply, rowBc_apply, colBc_apply, rowBc_apply, rowMean_apply]
  show (_ - _) * _ * Ideal.rsqrt (HandRun.rowVar (F := Ideal) e (ix2 r (0 : Fin 1)) + Ideal.ofBits .f32 0x3089705F#32) + _ = _
  rw [rowVar_apply]
  rfl

/-! ## The tail at an index -/

/-- Entry (r, j) of the reference's tail is the row function of row r of `A`, row r of `Y`, `W` and the three
    parameter rows, at `j`. -/
theorem tail_apply (A Y : (⟨S25000x512, .f32⟩ : BufTy).Contents (Elt Ideal)) (W : (⟨S512x512, .f32⟩ : BufTy).Contents (Elt Ideal))
    (b scale offset : (⟨S512, .f32⟩ : BufTy).Contents (Elt Ideal)) (r : Fin 25000) (j : Fin 512) :
    Cert.ReferenceIdeal.HandRun.tail (F := Ideal) A Y W b scale offset (ix2 r j)
      = Cert.RowSpec.rowOut (fun k => A (ix2 r k)) (fun k => Y (ix2 r k)) (fun k n => W (ix2 k n)) (fun n => b (ix1 n))
          (fun n => scale (ix1 n)) (fun n => offset (ix1 n)) j := by
  unfold HandRun.tail RowSpec.rowOut
  rw [norm_apply]
  refine congrArg (fun u => RowSpec.norm u (fun n => scale (ix1 n)) (fun n => offset (ix1 n)) j) (funext fun k => ?_)
  rw [elu_apply, lin_apply]
  rfl

end Cert.ReferenceIdeal.RowValue

end
-- ==== Proof.KHost.lean ====
/-
  What the tiled program's host operations hand to the pipeline.

  Before the pallas_call the program gathers rows of x by the column index, scales them by the edge
  values and adds them into the rows the row index names (agg); gathers the rows of the momentum buffer
  the sampled nodes name (ysel); and views each of the three parameter vectors as a one-row matrix. The
  arrays the pipeline's windows then read are these terms of the argument arrays.
-/
import proofs.«132914_j5334349382168_2_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The segment sum: rows of x picked by the (wrapped) column index, scaled by the edge value, added into the
    row of a zero matrix that the row index names. -/
def agg (x : (⟨S50000x512, .f32⟩ : BufTy).Contents (Elt F)) (rows cols : (⟨S500000, .i32⟩ : BufTy).Contents (Elt F))
    (vals : (⟨S500000, .f32⟩ : BufTy).Contents (Elt F)) : (⟨S25000x512, .f32⟩ : BufTy).Contents (Elt F) :=
  Host.scatterAdd scatter_S25000x512_S500000x1_S500000x512_1_0_0_1
    (broadcastInDim S25000x512 ![] bcast_S_S25000x512 (constant S_ .f32 0x00000000#32))
    (broadcastInDim S500000x1 ![0] bcast_S500000_S500000x1_0 rows)
    (mulf (broadcastInDim S500000x512 ![0, 1] bcast_S500000x1_S500000x512_0_1 (broadcastInDim S500000x1 ![0] bcast_S500000_S500000x1_0 vals))
      (Host.gather gather_S50000x512_S500000x1_S500000x512_1_0_n_n_0_1_1512 x
        (broadcastInDim S500000x1 ![0] bcast_S500000_S500000x1_0
          (select (cmpi .slt cols (broadcastInDim S500000 ![] bcast_S_S500000 (constantI S_ 32 0#32)))
            (addi cols (broadcastInDim S500000 ![] bcast_S_S500000 (constantI S_ 32 50000#32))) cols))))

/-- The rows of the buffer that the (wrapped) sampled nodes name. -/
def ysel (ybuf : (⟨S100000x512, .f32⟩ : BufTy).Contents (Elt F)) (nodes : (⟨S25000, .i32⟩ : BufTy).Contents (Elt F)) :
    (⟨S25000x512, .f32⟩ : BufTy).Contents (Elt F) :=
  Host.gather gather_S100000x512_S25000x1_S25000x512_1_0_n_n_0_1_1512 ybuf
    (broadcastInDim S25000x1 ![0] bcast_S25000_S25000x1_0
      (select (cmpi .slt nodes (broadcastInDim S25000 ![] bcast_S_S25000 (constantI S_ 32 0#32)))
        (addi nodes (broadcastInDim S25000 ![] bcast_S_S25000 (constantI S_ 32 100000#32))) nodes))

variable (m : (ℓ : Loc nD τ sig) → Buf (Elt F) ℓ)

theorem V_v12 (c : Dev nD) : (V m c main_v12 : S25000x512.Idx → Elt F .f32)
    = agg (m ((c.tc : Thread nD τ).loc main_arg0)) (m ((c.tc : Thread nD τ).loc main_arg1)) (m ((c.tc : Thread nD τ).loc main_arg2)) (m ((c.tc : Thread nD τ).loc main_arg3)) := by
  dsimp only [Gen.V, Gen.hostOps0]; after_results_simp; rfl

theorem V_v19 (c : Dev nD) : (V m c main_v19 : S25000x512.Idx → Elt F .f32)
    = ysel (m ((c.tc : Thread nD τ).loc main_arg5)) (m ((c.tc : Thread nD τ).loc main_arg4)) := by
  dsimp only [Gen.V, Gen.hostOps0]; after_results_simp; rfl

theorem V_v20 (c : Dev nD) : (V m c main_v20 : S1x512.Idx → Elt F .f32)
    = shapeCast S1x512 (m ((c.tc : Thread nD τ).loc main_arg7)) shapeCasts_S512_S1x512 := by
  dsimp only [Gen.V, Gen.hostOps0]; after_results_simp; rfl

theorem V_v21 (c : Dev nD) : (V m c main_v21 : S1x512.Idx → Elt F .f32)
    = shapeCast S1x512 (m ((c.tc : Thread nD τ).loc main_arg8)) shapeCasts_S512_S1x512 := by
  dsimp only [Gen.V, Gen.hostOps0]; after_results_simp; rfl

theorem V_v22 (c : Dev nD) : (V m c main_v22 : S1x512.Idx → Elt F .f32)
    = shapeCast S1x512 (m ((c.tc : Thread nD τ).loc main_arg9)) shapeCasts_S512_S1x512 := by
  dsimp only [Gen.V, Gen.hostOps0]; after_results_simp; rfl

end Cert.KernelIdeal.HostValue

end
-- ==== Proof.Bridge.lean ====
/-
  The two sides are one function.

  The tiled program ends with its result array at the array-wide function `G`: at (i, j) the row function of
  row i of the aggregated messages and row i of the selected rows, as its pipeline finds them. The reference
  ends with its result at `tail (agg …) (ysel …) …` of its arguments. Read at the same argument contents the
  two are equal: the arrays the pipeline finds are the same segment sum and the same selected rows (the two
  programs state them over shape and dimension records that differ in name only), the weight matrix is an
  argument on both sides, each parameter row is the parameter vector viewed as a one-row matrix, and the
  reference's tail at (i, j) is the row function of the same six rows.
-/
import proofs.«132914_j5334349382168_2_alg».proof.Proof.RefVal
import proofs.«132914_j5334349382168_2_alg».proof.Proof.KHost
import proofs.«132914_j5334349382168_2_alg».proof.Proof.KFinal
import Idealize.ShloMosaic.Lib.ValueLayout

noncomputable section

namespace Cert.Bridge

open Cert Idealize.ShloMosaic Idealize.ShloMosaic.TcCoe Idealize.ShloMosaic.ValueIdx Idealize.SL.Sem

/-! ## The two irregular stages are stated alike on both sides -/

section Stages
variable {F : FTy → Type} [FloatOps F]

attribute [local irreducible] Host.gather Host.scatterAdd in
/-- The segment sum of the tiled program's text is the reference's: the same operations over records with the
    same fields. -/
theorem agg_eq (x : (⟨KernelIdeal.S50000x512, .f32⟩ : BufTy).Contents (Elt F)) (rows cols : (⟨KernelIdeal.S500000, .i32⟩ : BufTy).Contents (Elt F))
    (vals : (⟨KernelIdeal.S500000, .f32⟩ : BufTy).Contents (Elt F)) :
    KernelIdeal.HostValue.agg x rows cols vals = ReferenceIdeal.HandRun.agg (F := F) x rows cols vals := rfl

attribute [local irreducible] Host.gather Host.scatterAdd in
/-- The selected rows likewise. -/
theorem ysel_eq (ybuf : (⟨KernelIdeal.S100000x512, .f32⟩ : BufTy).Contents (Elt F)) (nodes : (⟨KernelIdeal.S25000, .i32⟩ : BufTy).Contents (Elt F)) :
    KernelIdeal.HostValue.ysel ybuf nodes = ReferenceIdeal.HandRun.ysel (F := F) ybuf nodes := rfl

end Stages

/-! ## The array-wide function is the reference's result -/

/-- A parameter vector viewed as a one-row matrix, read at (0, n): the vector at n. -/
theorem row_view (v : KernelIdeal.S512.Idx → EReal) (h : KernelIdeal.S512.ShapeCasts KernelIdeal.S1x512) (n : Fin 512) :
    shapeCast KernelIdeal.S1x512 v h (ix2 (0 : Fin 1) n) = v (ix1 n) :=
  shapeCast_a_1a_apply (a := 512) v h 0 n

theorem G_eq (m : (ℓ : Loc KernelIdeal.nD KernelIdeal.τ KernelIdeal.sig) → Buf (Elt Ideal) ℓ) (c : Dev KernelIdeal.nD) :
    KernelIdeal.Final.G m c
      = ReferenceIdeal.HandRun.tail (F := Ideal)
          (ReferenceIdeal.HandRun.agg (F := Ideal) (m ((c.tc : Thread KernelIdeal.nD KernelIdeal.τ).loc KernelIdeal.main_arg0)) (m ((c.tc : Thread KernelIdeal.nD KernelIdeal.τ).loc KernelIdeal.main_arg1))
            (m ((c.tc : Thread KernelIdeal.nD KernelIdeal.τ).loc KernelIdeal.main_arg2)) (m ((c.tc : Thread KernelIdeal.nD KernelIdeal.τ).loc KernelIdeal.main_arg3)))
          (ReferenceIdeal.HandRun.ysel (F := Ideal) (m ((c.tc : Thread KernelIdeal.nD KernelIdeal.τ).loc KernelIdeal.main_arg5)) (m ((c.tc : Thread KernelIdeal.nD KernelIdeal.τ).loc KernelIdeal.main_arg4)))
          (m ((c.tc : Thread KernelIdeal.nD KernelIdeal.τ).loc KernelIdeal.main_arg6)) (m ((c.tc : Thread KernelIdeal.nD KernelIdeal.τ).loc KernelIdeal.main_arg7))
          (m ((c.tc : Thread KernelIdeal.nD KernelIdeal.τ).loc KernelIdeal.main_arg8)) (m ((c.tc : Thread KernelIdeal.nD KernelIdeal.τ).loc KernelIdeal.main_arg9)) := by
  funext i
  obtain ⟨r, j, rfl⟩ : ∃ (r : Fin 25000) (j : Fin 512), i = ix2 r j := ⟨i 0, i 1, eq_ix2 i⟩
  refine Eq.trans ?_ (ReferenceIdeal.RowValue.tail_apply _ _ _ _ _ _ r j).symm
  unfold KernelIdeal.Final.G
  show RowSpec.rowOut (fun k => KernelIdeal.Gen.V m c KernelIdeal.main_v12 (ix2 r k))
      (fun k => KernelIdeal.Gen.V m c KernelIdeal.main_v19 (ix2 r k))
      (fun k n => KernelIdeal.Gen.V m c KernelIdeal.main_arg6 (ix2 k n))
      (fun n => KernelIdeal.Gen.V m c KernelIdeal.main_v20 (ix2 (0 : Fin 1) n))
      (fun n => KernelIdeal.Gen.V m c KernelIdeal.main_v21 (ix2 (0 : Fin 1) n))
      (fun n => KernelIdeal.Gen.V m c KernelIdeal.main_v22 (ix2 (0 : Fin 1) n)) j = _
  have hb : (fun n : Fin 512 => KernelIdeal.Gen.V m c KernelIdeal.main_v20 (ix2 (0 : Fin 1) n))
      = fun n => (m ((c.tc : Thread KernelIdeal.nD KernelIdeal.τ).loc KernelIdeal.main_arg7)) (ix1 n) := funext fun n =>
    (congrFun (KernelIdeal.HostValue.V_v20 m c) (ix2 (0 : Fin 1) n)).trans (row_view _ _ n)
  have hs : (fun n : Fin 512 => KernelIdeal.Gen.V m c KernelIdeal.main_v21 (ix2 (0 : Fin 1) n))
      = fun n => (m ((c.tc : Thread KernelIdeal.nD KernelIdeal.τ).loc KernelIdeal.main_arg8)) (ix1 n) := funext fun n =>
    (congrFun (KernelIdeal.HostValue.V_v21 m c) (ix2 (0 : Fin 1) n)).trans (row_view _ _ n)
  have ho : (fun n : Fin 512 => KernelIdeal.Gen.V m c KernelIdeal.main_v22 (ix2 (0 : Fin 1) n))
      = fun n => (m ((c.tc : Thread KernelIdeal.nD KernelIdeal.τ).loc KernelIdeal.main_arg9)) (ix1 n) := funext fun n =>
    (congrFun (KernelIdeal.HostValue.V_v22 m c) (ix2 (0 : Fin 1) n)).trans (row_view _ _ n)
  rw [hb, hs, ho, KernelIdeal.HostValue.V_v12, KernelIdeal.HostValue.V_v19, KernelIdeal.Gen.V_main_arg6, agg_eq, ysel_eq]

end Cert.Bridge

end
-- ==== Proof.lean ====
/-
  A graph layer: messages aggregated over edges, a linear map, a momentum mix with stored embeddings, the
  exponential linear unit, and a per-row normalisation.

  Both programs first form agg (rows of x picked by the edges' column index, scaled by the edge values, summed
  into the row the edges' row index names) and ysel (the rows of the embedding buffer the sampled nodes name)
  with the same host operations. The reference then computes, on whole arrays,

      feat = 0.9 · (agg · W + b) + 0.1 · ysel,   u = elu(feat),   out = (u − mean u) · scale · (var u + ε)^(−1/2) + offset

  with mean and var taken along each row. The tiled program computes the same thing on 13 blocks of 2000
  rows, the matrix product on operands first cast to a narrower float format (the identity on the extended reals),
  the unit written as e^x − 1, and the last block carrying 1000 rows beyond the array's end.

  Why the two agree on the extended reals: every step after agg and ysel acts on one row at a time, so a row of
  the result is ONE function of the same row of agg and of ysel (Proof/Spec.lean). The tiled program's stored
  block is that function of its rows (Proof/KVal.lean); its write-backs cover the array, and the rows outside
  the array never reach a row inside (Proof/KFinal.lean, Proof/KCover.lean, with the run in Proof/KIdealRun.lean
  and Proof/KRun.lean). The reference's composed term is that function of its rows (Proof/RefRun.lean,
  Proof/RefVal.lean): jax's unit 1 · expm1(where(x > 0, 0, x)) is e^x − 1 where x ≤ 0, its variance divides by
  512 − 0, and its sums start from 0. The two sides' agg and ysel are the same terms (Proof/KHost.lean,
  Proof/Bridge.lean). No law used needs finiteness: the precondition is never opened.

  The frames: the word-level program's by running its body with nothing named (Proof/KernelFrame.lean); the
  idealized tiled program's and the reference's from their value runs.
-/
import proofs.«132914_j5334349382168_2_alg».proof.Defs
import proofs.«132914_j5334349382168_2_alg».proof.Proof.Gen.Kernel
import proofs.«132914_j5334349382168_2_alg».proof.Proof.Gen.Kernel.Skeleton
import proofs.«132914_j5334349382168_2_alg».proof.Proof.Gen.Kernel.Launch
import proofs.«132914_j5334349382168_2_alg».proof.Proof.Gen.Kernel.Points
import proofs.«132914_j5334349382168_2_alg».proof.Proof.Gen.Kernel.Frame
import proofs.«132914_j5334349382168_2_alg».proof.Proof.Gen.KernelIdeal
import proofs.«132914_j5334349382168_2_alg».proof.Proof.Gen.KernelIdeal.Skeleton
import proofs.«132914_j5334349382168_2_alg».proof.Proof.Gen.KernelIdeal.Launch
import proofs.«132914_j5334349382168_2_alg».proof.Proof.Gen.KernelIdeal.Points
import proofs.«132914_j5334349382168_2_alg».proof.Proof.Gen.KernelIdeal.Frame
import proofs.«132914_j5334349382168_2_alg».proof.Proof.Gen.ReferenceIdeal
import proofs.«132914_j5334349382168_2_alg».proof.Proof.Gen.Pre_finite_inputs
import proofs.«132914_j5334349382168_2_alg».proof.Proof.KernelFrame
import proofs.«132914_j5334349382168_2_alg».proof.Proof.KRun
import proofs.«132914_j5334349382168_2_alg».proof.Proof.RefRun
import proofs.«132914_j5334349382168_2_alg».proof.Proof.Bridge
import Idealize.ShloMosaic.Adequacy
import Idealize.ShloMosaic.Init

noncomputable section

namespace Cert.Proof

open Idealize.ShloMosaic Idealize.ShloMosaic.TcCoe Idealize.SL.Sem

/-- The word-level tiled program runs and leaves its arguments unchanged. -/
theorem frame_p : Cert.frame_Kernel := fun m ρ _ => Cert.Kernel.HandFrame.frame (F := Bits) m ρ

/-- So does the idealized one. -/
theorem frame_pi : Cert.frame_KernelIdeal := fun m ρ _ => Cert.KernelIdeal.HandRun.frame m ρ

/-- The reference runs and leaves its arguments unchanged: its value run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- From memories that agree on the arguments both programs end with the result array at the array-wide row
    function of the arguments: the tiled program's run (Proof/KRun.lean), the reference's run
    (Proof/RefRun.lean), and the equation between the two terms (Proof/Bridge.lean). -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7, h8, h9⟩ := hagree c
  rw [h0, h1, h2, h3, h4, h5, h6, h7, h8, h9]
  exact (Cert.Bridge.G_eq m c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
